-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1000x2048 : Shape := ⟨2, ![1000, 2048]⟩
abbrev S4096x1000 : Shape := ⟨2, ![4096, 1000]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_

variable [Facts]

def fn {F : FTy → Type} [FloatOps F] (main_arg0 : FVec F S4096x2048 .f32) (main_arg1 : FVec F S1000x2048 .f32) (main_arg2 : IVec S4096x1000 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  main_v8
-- ==== Kernel.lean ====
abbrev S4096x2048 : Shape := ⟨2, ![4096, 2048]⟩
abbrev S1000x2048 : Shape := ⟨2, ![1000, 2048]⟩
abbrev S4096x1000 : Shape := ⟨2, ![4096, 1000]⟩
abbrev S_ : Shape := ⟨0, ![]⟩
abbrev S1024x2048 : Shape := ⟨2, ![1024, 2048]⟩
abbrev S4096x1024 : Shape := ⟨2, ![4096, 1024]⟩
abbrev S1024 : Shape := ⟨1, ![1024]⟩
abbrev S1024x1 : Shape := ⟨2, ![1024, 1]⟩
abbrev S8x1x1 : Shape := ⟨3, ![8, 1, 1]⟩
abbrev S512x2048 : Shape := ⟨2, ![512, 2048]⟩
abbrev S512x1024 : Shape := ⟨2, ![512, 1024]⟩
abbrev S1x1x1 : Shape := ⟨3, ![1, 1, 1]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 34
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1000x2048, .f32⟩
  | .hbm, ⟨2, _⟩ => ⟨S4096x1000, .i32⟩
  | .hbm, ⟨3, _⟩ => ⟨S_, .i32⟩
  | .hbm, ⟨4, _⟩ => ⟨S_, .f32⟩
  | .hbm, ⟨5, _⟩ => ⟨S1024x2048, .f32⟩
  | .hbm, ⟨6, _⟩ => ⟨S_, .i32⟩
  | .hbm, ⟨7, _⟩ => ⟨S_, .i32⟩
  | .hbm, ⟨8, _⟩ => ⟨S4096x1024, .i32⟩
  | .hbm, ⟨9, _⟩ => ⟨S1024x2048, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1024x2048, .bf16⟩
  | .hbm, ⟨20, _⟩ => ⟨S8x1x1, .f32⟩
  | .hbm, ⟨21, _⟩ => ⟨S8x1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .i32⟩
  | .local _ .vmem, ⟨4, _⟩ => ⟨S512x1024, .i32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_call2_v0 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S1000x2048_S1024x2048_0240_000 : S1000x2048.Pads (![0, 0] : Fin 2 → Nat) ![24, 0] ![0, 0] S1024x2048
  h_S_ : 0 < S_.numel
  pads_S4096x1000_S4096x1024_000_0240 : S4096x1000.Pads (![0, 0] : Fin 2 → Nat) ![0, 24] ![0, 0] S4096x1024
  reducesTo_S1024x2048_S1024_d1 : S1024x2048.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S512x2048_S512 : S512x2048.Reduces [1] S512
  shapeCasts_S512_S512x1 : S512.ShapeCasts S512x1
  broadcasts_S512x1_S512x2048 : S512x1.Broadcasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  natLt_1_32 : 1 < 32
  reduces_S512x1024_S512 : S512x1024.Reduces [1] S512
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .i32 = 32 ∨ (Rect.block (s := S4096x1024) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1000x2048 : Shape := ⟨2, ![1000, 2048]⟩
abbrev S4096x1000 : Shape := ⟨2, ![4096, 1000]⟩
abbrev S_ : Shape := ⟨0, ![]⟩
abbrev S4096 : Shape := ⟨1, ![4096]⟩
abbrev S4096x1 : Shape := ⟨2, ![4096, 1]⟩
abbrev S1000 : Shape := ⟨1, ![1000]⟩
abbrev S1000x1 : Shape := ⟨2, ![1000, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1000x2048, .f32⟩
  | .hbm, ⟨2, _⟩ => ⟨S4096x1000, .i32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S1000x2048, .f32⟩
  | .hbm, ⟨14, _⟩ => ⟨S_, .f32⟩
  | .hbm, ⟨15, _⟩ => ⟨S1000, .f32⟩
  | .hbm, ⟨16, _⟩ => ⟨S1000x1, .f32⟩
  | .hbm, ⟨17, _⟩ => ⟨S1000x1, .f32⟩
  | .hbm, ⟨18, _⟩ => ⟨S_, .f32⟩
  | .hbm, ⟨19, _⟩ => ⟨S1000x1, .f32⟩
  | .hbm, ⟨20, _⟩ => ⟨S1000x1, .f32⟩
  | .hbm, ⟨21, _⟩ => ⟨S1000x2048, .f32⟩
  | .hbm, ⟨22, _⟩ => ⟨S1000x2048, .f32⟩
  | .hbm, ⟨23, _⟩ => ⟨S4096x1000, .f32⟩
  | .hbm, ⟨24, _⟩ => ⟨S_, .f32⟩
  | .hbm, ⟨25, _⟩ => ⟨S4096x1000, .f32⟩
  | .hbm, ⟨26, _⟩ => ⟨S4096x1000, .f32⟩
  | .hbm, ⟨27, _⟩ => ⟨S4096x1000, .f32⟩
  | .hbm, ⟨28, _⟩ => ⟨S_, .f32⟩
  | .hbm, ⟨29, _⟩ => ⟨S4096x1000, .f32⟩
  | .hbm, ⟨30, _⟩ => ⟨S4096x1000, .f32⟩
  | .hbm, ⟨31, _⟩ => ⟨S4096x1000, .f32⟩
  | .hbm, ⟨32, _⟩ => ⟨S4096x1000, .f32⟩
  | .hbm, ⟨33, _⟩ => ⟨S4096x1000, .i1⟩
  | .hbm, ⟨34, _⟩ => ⟨S4096x1000, .f32⟩
  | .hbm, ⟨35, _⟩ => ⟨S4096x1000, .f32⟩
  | .hbm, ⟨36, _⟩ => ⟨S4096x1000, .f32⟩
  | .hbm, ⟨37, _⟩ => ⟨S4096x1000, .f32⟩
  | .hbm, ⟨38, _⟩ => ⟨S4096x1000, .f32⟩
  | .hbm, ⟨39, _⟩ => ⟨S4096x1000, .f32⟩
  | .hbm, ⟨40, _⟩ => ⟨S4096x1000, .f32⟩
  | .hbm, ⟨41, _⟩ => ⟨S4096x1000, .f32⟩
  | .hbm, ⟨42, _⟩ => ⟨S_, .i32⟩
  | .hbm, ⟨43, _⟩ => ⟨S4096x1000, .i32⟩
  | .hbm, ⟨44, _⟩ => ⟨S4096x1000, .i1⟩
  | .hbm, ⟨45, _⟩ => ⟨S4096x1000, .i32⟩
  | .hbm, ⟨46, _⟩ => ⟨S_, .i32⟩
  | .hbm, ⟨47, _⟩ => ⟨S4096, .i32⟩
  | .hbm, ⟨48, _⟩ => ⟨S_, .f32⟩
  | .hbm, ⟨49, _⟩ => ⟨S_, .f32⟩
  | .hbm, ⟨50, _⟩ => ⟨S4096x1000, .f32⟩
  | .hbm, ⟨51, _⟩ => ⟨S4096x1000, .f32⟩
  | .hbm, ⟨52, _⟩ => ⟨S_, .f32⟩
  | .hbm, ⟨53, _⟩ => ⟨S4096, .f32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .f32⟩
  | .hbm, ⟨58, _⟩ => ⟨S4096, .f32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S4096, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_cst_11 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_c_13 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_14 : Ref sig .tc := ⟨.hbm, 77, rfl⟩
abbrev main_call3_v0 : Ref sig .tc := ⟨.hbm, 78, rfl⟩
abbrev main_v41 : Ref sig .tc := ⟨.hbm, 79, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  reducesTo_S1000x2048_S1000_d1 : S1000x2048.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x2048_0_1 : S1000x1.BroadcastsInDim S1000x2048 (![0, 1] : Fin 2 → Fin S1000x2048.rank)
  bcast_S_S4096x1000 : S_.BroadcastsInDim S4096x1000 (![] : Fin 0 → Fin S4096x1000.rank)
  natLt_1_32 : 1 < 32
  reducesTo_S4096x1000_S4096_d1 : S4096x1000.ReducesTo [1] S4096
  bcast_S_S4096 : S_.BroadcastsInDim S4096 (![] : Fin 0 → Fin S4096.rank)
  reducesTo_S4096_S_d0 : S4096.ReducesTo [0] S_
  dot_S4096x2048_S1000x2048_S4096x1000_1_1_0_0_n_n_wf : DotDims.WF S4096x2048 S1000x2048 S4096x1000 [1] [1] [0] [0] [] []

variable [Facts₀]

def dot_S4096x2048_S1000x2048_S4096x1000_1_1_0_0_n_n : DotDims S4096x2048 S1000x2048 S4096x1000 where
  lhsContracting := [1]
  rhsContracting := [1]
  lhsNonContracting := [0]
  rhsNonContracting := [0]
  lhsBatch := []
  rhsBatch := []
  wf := dot_S4096x2048_S1000x2048_S4096x1000_1_1_0_0_n_n_wf

class Facts : Prop extends Facts₀ where

variable [Facts]
-- ==== Proof.Spec.lean ====
/-
  The loss both programs compute, as one function of the three argument arrays, over the extended reals.

  Every row of the features and of the prototypes is divided by its Euclidean length floored at ε; the similarity of a
  feature row and a prototype row is the inner product of the two unit rows over the temperature; an entry's loss is
  softplus of minus its similarity, softplus x = max x 0 + log (1 + exp (-|x|)); a feature row's loss is the mean of its
  entries' losses over the positions whose label is positive, the rows with no positive label are left out, and the
  result is the mean of the remaining rows' losses (zero when no row remains). Counts are natural numbers here; each
  program carries them in its own way (a 32-bit sum, a sum of floats).
-/
import Idealize.ShloMosaic.PureOps.Ideal
import Idealize.ShloMosaic.Lib.ValueIdx

noncomputable section

namespace Cert.SupCon

open Idealize.ShloMosaic Idealize.ShloMosaic.ValueIdx

/-- The floor under a row's length, and the temperature: the binary values their f32 words denote. -/
def eps : EReal := Ideal.ofBits .f32 0x2B8CBCCC#32
def temp : EReal := Ideal.ofBits .f32 0x3DCCCCCD#32

/-- Row `r`'s Euclidean length, floored at ε. -/
def rowNorm {n : Nat} (x : (⟨2, ![n, 2048]⟩ : Shape).Idx → EReal) (r : Fin n) : EReal :=
  max (Ideal.sqrt (∑ d : Fin 2048, x (ix2 r d) * x (ix2 r d))) eps

/-- Row `r` scaled to unit length, at coordinate `d`. -/
def unitRow {n : Nat} (x : (⟨2, ![n, 2048]⟩ : Shape).Idx → EReal) (r : Fin n) (d : Fin 2048) : EReal :=
  Ideal.div (x (ix2 r d)) (rowNorm x r)

/-- The inner product of two rows over the temperature. -/
def simOf (a b : Fin 2048 → EReal) : EReal := Ideal.div (∑ d : Fin 2048, a d * b d) temp

/-- softplus x = max x 0 + log (1 + exp (-|x|)), with |x| spelt max x (-x). -/
def softplus (x : EReal) : EReal := max x 0 + Ideal.log1p (Ideal.exp (-(max x (-x))))

/-- An entry's loss from its similarity. -/
def lossOf (s : EReal) : EReal := softplus (-s)

/-- Whether a label is positive (a signed comparison of the 32-bit word with zero), as one bit. -/
def posBit (w : BitVec 32) : BitVec 1 := IntOp.cmpi .sgt w 0#32

/-- The zero word is not positive. -/
theorem posBit_zero : posBit 0#32 = 0#1 := by decide

/-- A row's mean loss from its masked sum and its count of positive labels. -/
def meanOf (s : EReal) (n : ℕ) : EReal := Ideal.div s (((max n 1 : ℕ) : ℝ) : EReal)

section Whole
variable (f : (⟨2, ![4096, 2048]⟩ : Shape).Idx → EReal) (p : (⟨2, ![1000, 2048]⟩ : Shape).Idx → EReal)
  (l : (⟨2, ![4096, 1000]⟩ : Shape).Idx → BitVec 32)

/-- The similarity of feature row `r` and prototype row `c`. -/
def sim (r : Fin 4096) (c : Fin 1000) : EReal := simOf (unitRow f r) (unitRow p c)

/-- How many labels of row `r` are positive. -/
def cnt (r : Fin 4096) : ℕ := ∑ c : Fin 1000, (posBit (l (ix2 r c))).toNat

/-- The sum of row `r`'s entry losses over its positive labels. -/
def rowSum (r : Fin 4096) : EReal := ∑ c : Fin 1000, Scalar.select (posBit (l (ix2 r c))) (lossOf (sim f p r c)) 0

/-- Row `r`'s mean loss. -/
def rowLoss (r : Fin 4096) : EReal := meanOf (rowSum f p l r) (cnt l r)

/-- How many rows have a positive label. -/
def nvalid : ℕ := ∑ r : Fin 4096, if 0 < cnt l r then 1 else 0

/-- The sum of the mean losses of the rows that have a positive label. -/
def total : EReal := ∑ r : Fin 4096, if 0 < cnt l r then rowLoss f p l r else 0

/-- The loss: the mean over the rows that have a positive label, zero when there is none. -/
def out : EReal := if 0 < nvalid l then meanOf (total f p l) (nvalid l) else 0

end Whole

end Cert.SupCon

end
-- ==== Proof.LibCounts.lean ====
/-
  Counts of bits, read as natural numbers — a general module (nothing here mentions a particular program).

  A count of one-bit flags can be carried as a sum of 32-bit words converted to a float once, or as a sum of the floats
  0 and 1. Both are the same natural number: a sum of fewer than 2^31 bits cannot wrap a 32-bit word or reach its sign
  bit, and a sum of real images of naturals is the real image of the sum.
  • `coe_sum_natCast`: a finite sum of extended-real images of naturals is the image of the sum;
  • `toNat_setWidth_bit`, `bit_toNat_le`, `sitofp_bit`, `sum_bits_le`: one bit widened to 32 bits, converted, bounded;
  • `fold_addi_finset`, `fold_addi`: adding 32-bit words over a finite set is the word of the sum of their values;
  • `toInt_ofNat_small`, `sitofp_maxsi_count`, `cmpi_sgt_count`: the word of a count below 2^31, its signed maximum
    with one converted to a float, its signed comparison with zero;
  • `cmp_ogt_count`, `max_count_one`: the same comparison and maximum on the float side;
  • `select_ofBool`, `toNat_ofBool`, `setWidth_ofBool_toNat`: the bit of a decidable proposition;
  • `sum_pad`: a sum over 1024 positions whose terms vanish from position 1000 on is the sum over the first 1000;
  • `ereal_zero_sub`, `ereal_sub_zero`, `cmp_une_self`: 0 - x = -x, x - 0 = x, and no extended real differs from itself.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.KernelVsHost

namespace Cert.LibCounts

open Idealize.ShloMosaic

/-- A finite sum of extended-real images of naturals is the image of the sum of the naturals. -/
theorem coe_sum_natCast {ι : Type} (s : Finset ι) (g : ι → ℕ) :
    ∑ i ∈ s, (((g i : ℕ) : ℝ) : EReal) = (((∑ i ∈ s, g i : ℕ) : ℝ) : EReal) := by
  classical
  induction s using Finset.induction_on with
  | empty => simp
  | insert a s ha ih =>
    rw [Finset.sum_insert ha, Finset.sum_insert ha, ih, Nat.cast_add, EReal.coe_add]

/-- Widening one bit to 32 bits keeps its unsigned value. -/
theorem toNat_setWidth_bit (b : BitVec 1) : (b.setWidth 32).toNat = b.toNat := by
  revert b; decide

/-- One bit is at most one. -/
theorem bit_toNat_le (b : BitVec 1) : b.toNat ≤ 1 := by
  revert b; decide

/-- One bit widened to 32 bits and converted as a signed integer is the bit's value, 0 or 1. -/
theorem sitofp_bit (b : BitVec 1) :
    FloatOps.sitofp (F := Ideal) .f32 (b.setWidth 32) = (((b.toNat : ℕ) : ℝ) : EReal) := by
  show ((((b.setWidth 32).toInt : ℤ) : ℝ) : EReal) = (((b.toNat : ℕ) : ℝ) : EReal)
  rw [toInt_setWidth_bit]
  norm_cast

/-- Adding 32-bit words over a finite set is the word of the sum of their unsigned values. -/
theorem fold_addi_finset {ι : Type} (s : Finset ι) (g : ι → BitVec 32) :
    s.fold IntOp.addi 0#32 g = BitVec.ofNat 32 (∑ i ∈ s, (g i).toNat) := by
  classical
  induction s using Finset.induction_on with
  | empty => simp
  | insert a s ha ih =>
    rw [Finset.fold_insert ha, Finset.sum_insert ha, ih, BitVec.ofNat_add, BitVec.ofNat_toNat,
      BitVec.setWidth_eq]
    rfl

/-- Adding 32-bit words over all of `Fin n` is the word of the sum of their unsigned values. -/
theorem fold_addi (n : ℕ) (g : Fin n → BitVec 32) :
    (Finset.univ : Finset (Fin n)).fold IntOp.addi 0#32 g = BitVec.ofNat 32 (∑ i, (g i).toNat) :=
  fold_addi_finset Finset.univ g

/-- The signed value of the 32-bit word of a natural below 2^31 is that natural. -/
theorem toInt_ofNat_small (n : ℕ) (hn : n < 2 ^ 31) : (BitVec.ofNat 32 n).toInt = (n : ℤ) := by
  rw [BitVec.toInt_eq_toNat_cond, BitVec.toNat_ofNat]
  have h : n % 2 ^ 32 = n := Nat.mod_eq_of_lt (by omega)
  rw [h]
  split_ifs with h2
  · rfl
  · omega

/-- The signed maximum with one of the word of a count below 2^31, converted, is the maximum of the count and one. -/
theorem sitofp_maxsi_count (n : ℕ) (hn : n < 2 ^ 31) :
    FloatOps.sitofp (F := Ideal) .f32 (IntOp.maxsi (BitVec.ofNat 32 n) 1#32) = (((max n 1 : ℕ) : ℝ) : EReal) := by
  have hw : IntOp.maxsi (BitVec.ofNat 32 n) 1#32 = BitVec.ofNat 32 (max n 1) := by
    unfold IntOp.maxsi
    have h1 : (1#32).toInt = 1 := by decide
    simp only [BitVec.slt, h1, toInt_ofNat_small n hn, decide_eq_true_eq]
    split_ifs with h
    · have : max n 1 = n := by omega
      rw [this]
    · have : max n 1 = 1 := by omega
      rw [this]
  rw [hw]
  show ((((BitVec.ofNat 32 (max n 1)).toInt : ℤ) : ℝ) : EReal) = _
  rw [toInt_ofNat_small (max n 1) (by omega)]
  norm_cast

/-- The word of a count below 2^31 is greater than zero as a signed word exactly when the count is positive. -/
theorem cmpi_sgt_count (n : ℕ) (hn : n < 2 ^ 31) :
    IntOp.cmpi .sgt (BitVec.ofNat 32 n) 0#32 = BitVec.ofBool (decide (0 < n)) := by
  have h0 : (0#32).toInt = 0 := by decide
  show BitVec.ofBool ((0#32).slt (BitVec.ofNat 32 n)) = _
  congr 1
  simp only [BitVec.slt, h0, toInt_ofNat_small n hn]
  exact decide_eq_decide.mpr (by omega)

/-- The image of a natural is greater than zero in the extended reals exactly when the natural is positive. -/
theorem cmp_ogt_count (n : ℕ) : Ideal.cmp .ogt (((n : ℕ) : ℝ) : EReal) 0 = BitVec.ofBool (decide (0 < n)) := by
  show BitVec.ofBool (decide ((0 : EReal) < (((n : ℕ) : ℝ) : EReal))) = _
  congr 1
  exact decide_eq_decide.mpr (by rw [EReal.coe_pos, Nat.cast_pos])

/-- The maximum of the image of a natural and one is the image of the maximum of the natural and one. -/
theorem max_count_one (n : ℕ) : max ((((n : ℕ) : ℝ)) : EReal) 1 = (((max n 1 : ℕ) : ℝ) : EReal) := by
  rw [Nat.cast_max, EReal.coe_strictMono.monotone.map_max, Nat.cast_one, EReal.coe_one]

/-- Selecting by the bit of a decidable proposition is the if-then-else on the proposition. -/
theorem select_ofBool {α : Type} (q : Prop) [Decidable q] (a b : α) :
    Scalar.select (BitVec.ofBool (decide q)) a b = if q then a else b := by
  by_cases h : q <;> simp [Scalar.select, h]

/-- The bit of a decidable proposition has value one when it holds and zero when it does not. -/
theorem toNat_ofBool (q : Prop) [Decidable q] : (BitVec.ofBool (decide q)).toNat = if q then 1 else 0 := by
  by_cases h : q <;> simp [h]

/-- The bit of a decidable proposition widened to 32 bits has value one when it holds and zero when it does not. -/
theorem setWidth_ofBool_toNat (q : Prop) [Decidable q] :
    ((BitVec.ofBool (decide q)).setWidth 32).toNat = if q then 1 else 0 := by
  rw [toNat_setWidth_bit, toNat_ofBool]

/-- A sum over 1024 positions whose terms vanish from position 1000 on is the sum over the first 1000 positions. -/
theorem sum_pad {M : Type*} [AddCommMonoid M] (g : Fin 1024 → M) (h : ∀ c : Fin 1024, 1000 ≤ c.val → g c = 0) :
    ∑ c : Fin 1024, g c = ∑ c : Fin 1000, g (Fin.castLE (by decide) c) := by
  have hs : ∑ c : Fin (1000 + 24), g c = _ := Fin.sum_univ_add (a := 1000) (b := 24) g
  rw [hs, Finset.sum_eq_zero (s := Finset.univ) (f := fun i : Fin 24 => g (Fin.natAdd 1000 i))
    (fun i _ => h _ (by simp)), add_zero]
  rfl

/-- A sum of `n` bits is at most `n`. -/
theorem sum_bits_le (n : ℕ) (g : Fin n → BitVec 1) : ∑ i, (g i).toNat ≤ n := by
  have h := Finset.sum_le_card_nsmul (Finset.univ : Finset (Fin n)) (fun i => (g i).toNat) 1
    (fun i _ => bit_toNat_le (g i))
  simpa using h

/-- Zero minus an extended real is its negation. -/
theorem ereal_zero_sub (x : EReal) : 0 - x = -x := zero_sub x

/-- An extended real minus zero is itself. -/
theorem ereal_sub_zero (x : EReal) : x - 0 = x := sub_zero x

/-- No extended real differs from itself. -/
theorem cmp_une_self (x : EReal) : Ideal.cmp .une x x = 0#1 := by
  simp [Ideal.cmp]

end Cert.LibCounts
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibTileSum.lean ====
/-
  The total of an `[a, b]` tile taken in two keepdims steps, read at the exact values — a general module: every lemma
  is general in the extents, and the layout lemmas in the element type.
  • `shapeCast_ab1_ab_apply`: an `[a, b, 1]` array recast to `[a, b]`, at `(i, j)`, is the array at `(i, j, 0)`;
  • `lift_first_a1`, `multiReduction_add_first_a1`: an add reduction of a column `[a, 1]` along its first axis is the
    sum of the column's entries;
  • `col_total`: a vector `[a]` recast as a column, the column summed, the result recast to `[1, 1]`: its one entry is
    the sum of the vector's entries;
  • `tile_total`: the lanes summed row by row (`[a, b] → [a]`), the row sums recast as a column (`[a] → [a, 1]`),
    the column summed (`[a, 1] → [1]`) and the result recast to `[1, 1]`: its one entry is `∑ i, ∑ j` of the tile.
-/
import proofs.«121065_j19361712571095_2_alg».proof.Proof.LibKeepdims

namespace Cert.LibTileSum

open Idealize.ShloMosaic Idealize.ShloMosaic.ValueIdx

section Layout
variable {α : Type}

/-- An `[a, b, 1]` array recast to `[a, b]` reads, at `(i, j)`, the array at `(i, j, 0)`: the unit axis contributes
    nothing to the row-major position. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Layout

section Reductions
variable {φ : FTy}

/-- Reducing a column `[a, 1]` over its first axis: over the one result index, coordinate `k` on the reduced axis is
    `(k, 0)`. -/
theorem lift_first_a1 {a : ℕ} (h : (⟨2, ![a, 1]⟩ : Shape).Reduces [0] ⟨1, ![1]⟩) (u : Fin 1) (k : Fin a) :
    h.lift (ix1 u) k = ix2 k u := by
  funext ax
  apply Fin.ext
  match ax with
  | ⟨0, _⟩ => rfl
  | ⟨1, _⟩ => rfl

/-- An add reduction of a column `[a, 1]` along its first axis, at the exact values: the sum of its entries. -/
theorem multiReduction_add_first_a1 {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k u) :=
  (Ideal.multiReduction_add_single src acc h hφ hacc (ix1 u)).trans
    (Finset.sum_congr rfl fun k _ => congrArg src (lift_first_a1 h u k))

/-- A vector recast as a column, the column summed along its first axis, the result recast to `[1, 1]`: the one entry is
    the sum of the vector's entries. -/
theorem col_total {a : ℕ} (v : FVec Ideal ⟨1, ![a]⟩ φ) (acc : BitVec φ.bits)
    (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats φ) (hacc : acc = FKind.add.neutral φ hφ) (u w : Fin 1) :
    shapeCast ⟨2, ![1, 1]⟩ (multiReduction .add [0] ⟨1, ![1]⟩ (shapeCast ⟨2, ![a, 1]⟩ v hc1) acc h2 hφ hacc) hc2 (ix2 u w)
      = ∑ i : Fin a, v (ix1 i) := by
  rw [Cert.LibKeepdims.shapeCast_a_a1_apply, multiReduction_add_first_a1]
  refine Finset.sum_congr rfl fun i _ => ?_
  rw [Cert.LibKeepdims.shapeCast_a_a1_apply]

/-- The total of a tile in two keepdims steps — each row's lanes summed, the row sums as a column, the column summed,
    the result as a `[1, 1]` array — is, at its one entry, the sum over the rows of the sums over the lanes. -/
theorem tile_total {a b : ℕ} (v : FVec Ideal ⟨2, ![a, b]⟩ φ) (acc1 acc2 : BitVec φ.bits)
    (h1 : (⟨2, ![a, b]⟩ : Shape).Reduces [1] ⟨1, ![a]⟩) (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats φ) (hacc1 : acc1 = FKind.add.neutral φ hφ) (hacc2 : acc2 = FKind.add.neutral φ hφ) (u w : Fin 1) :
    shapeCast ⟨2, ![1, 1]⟩
        (multiReduction .add [0] ⟨1, ![1]⟩
          (shapeCast ⟨2, ![a, 1]⟩ (multiReduction .add [1] ⟨1, ![a]⟩ v acc1 h1 hφ hacc1) hc1) acc2 h2 hφ hacc2) hc2 (ix2 u w)
      = ∑ i : Fin a, ∑ j : Fin b, v (ix2 i j) := by
  rw [Cert.LibKeepdims.shapeCast_a_a1_apply, multiReduction_add_first_a1]
  refine Finset.sum_congr rfl fun i _ => ?_
  rw [Cert.LibKeepdims.shapeCast_a_a1_apply, Cert.LibKeepdims.multiReduction_add_last_ab]

end Reductions

end Cert.LibTileSum
-- ==== Proof.KernelBody.lean ====
/-
  What the kernel's body computes on one block, read entry by entry at the exact values.

  A block is 512 feature rows `x0`, the 1024 unit prototype rows `x1` (already scaled by the caller) and the block's
  512 × 1024 labels `x2`. Row `r` of the block: its count of positive labels (a sum of 0/1 floats), its masked sum of
  entry losses over the 1024 columns, its mean; then the block's two partial results, the sum of the means of the rows
  that have a positive label and the number of such rows.
-/
import proofs.«121065_j19361712571095_2_alg».proof.Proof.Gen.KernelIdeal.Skeleton
import proofs.«121065_j19361712571095_2_alg».proof.Proof.Spec
import proofs.«121065_j19361712571095_2_alg».proof.Proof.LibCounts
import proofs.«121065_j19361712571095_2_alg».proof.Proof.LibKeepdims
import proofs.«121065_j19361712571095_2_alg».proof.Proof.LibTileSum
import Idealize.ShloMosaic.Lib.ValueIdx
import Idealize.ShloMosaic.Lib.Pipeline.Value
import Idealize.ShloMosaic.PureOps.Ideal.Laws
import Idealize.ShloMosaic.Lib.IdealHost

noncomputable section

namespace Cert.SupCon.Body

open Idealize.ShloMosaic Idealize.ShloMosaic.ValueIdx Cert.KernelIdeal Cert.KernelIdeal.Gen Cert.SupCon

/-! ## Elementwise operations at an index (definitional) -/

theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl
theorem absf_apply {s : Shape} {φ : FTy} (v : FVec Ideal s φ) (i : s.Idx) : absf v i = max (v i) (-(v i)) := rfl

/-! ## The label bit and the row's count -/

/-- The comparison with zero at `(r, c)` is the label's positivity bit. -/
theorem bit_apply (x2 : Vec Ideal S512x1024 .i32) (r : Fin 512) (c : Fin 1024) :
    k0_pay4 (F := Ideal) x2 (ix2 r c) = posBit (x2 (ix2 r c)) := by
  unfold k0_pay4
  rw [shapeCast_self]
  rfl

/-- The row's count as the body takes it — the lane sum of the bits converted to floats — is the natural number of
    positive labels among the row's 1024 columns. -/
theorem count_apply (x2 : Vec Ideal S512x1024 .i32) (r : Fin 512) (u : Fin 1) :
    k0_pay5 (F := Ideal) x2 (ix2 r u) = (((∑ c : Fin 1024, (posBit (x2 (ix2 r c))).toNat : ℕ) : ℝ) : EReal) := by
  unfold k0_pay5
  refine (Cert.LibKeepdims.shapeCast_a_a1_apply _ _ r u).trans ?_
  refine (Cert.LibKeepdims.multiReduction_add_last_ab _ _ _ _ _ r).trans ?_
  rw [← LibCounts.coe_sum_natCast]
  refine Finset.sum_congr rfl fun c _ => ?_
  show FloatOps.sitofp (F := Ideal) .f32 ((k0_pay4 (F := Ideal) x2 (ix2 r c)).setWidth 32) = _
  rw [bit_apply, LibCounts.sitofp_bit]

/-! ## The block's similarities and entry losses -/

/-- The rows' lengths floored at ε, as a column. -/
def normV (x0 : FVec Ideal S512x2048 .f32) : FVec Ideal S512x1 .f32 :=
  maximumf (sqrt (shapeCast S512x1 (multiReduction .add [1] S512 (mulf x0 x0) 0x00000000#32 reduces_S512x2048_S512 (.inl rfl) rfl)
    shapeCasts_S512_S512x1)) (broadcast S512x1 (Scalar.ofBits .f32 0x2B8CBCCC#32))

theorem normV_apply (x0 : FVec Ideal S512x2048 .f32) (r : Fin 512) (u : Fin 1) : normV x0 (ix2 r u) = rowNorm x0 r := by
  unfold normV rowNorm
  rw [maximumf_apply, sqrt_apply]
  refine congrArg₂ max (congrArg Ideal.sqrt ?_) rfl
  refine (Cert.LibKeepdims.shapeCast_a_a1_apply _ _ r u).trans ?_
  exact Cert.LibKeepdims.multiReduction_add_last_ab _ _ _ _ _ r

/-- The rows scaled to unit length (the change of format is the identity). -/
def unitV (x0 : FVec Ideal S512x2048 .f32) : FVec Ideal S512x2048 .bf16 :=
  truncf .bf16 (divf x0 (broadcastTo S512x2048 (normV x0) broadcasts_S512x1_S512x2048)) bitsLt_bf16_f32

theorem unitV_apply (x0 : FVec Ideal S512x2048 .f32) (r : Fin 512) (d : Fin 2048) : unitV x0 (ix2 r d) = unitRow x0 r d := by
  unfold unitV unitRow
  rw [truncf_apply, divf_apply, Cert.LibKeepdims.broadcastTo_a1_ab_apply, normV_apply]

/-- The label `D` of the matrix product's dimension numbers: rows of the first operand against rows of the second. -/
abbrev dotD : DotDims S512x2048 S1024x2048 S512x1024 := dot_S512x2048_S1024x2048_S512x1024_1_1_0_0_n_n

/-- The block's similarities: each unit feature row against each prototype row, over the temperature. -/
def simV (x0 : FVec Ideal S512x2048 .f32) (x1 : FVec Ideal S1024x2048 .bf16) : FVec Ideal S512x1024 .f32 :=
  divf (matmul dot_S512x2048_S1024x2048_S512x1024_1_1_0_0_n_n none (unitV x0)
      (shapeCast S1024x2048 x1 shapeCasts_S1024x2048_S1024x2048) (constant S512x1024 .f32 0x00000000#32))
    (broadcast S512x1024 (Scalar.ofBits .f32 0x3DCCCCCD#32))

theorem lhs_row (i : S512x1024.Idx) (q : dotD.contr.Idx) : (dotD.lhsIdx i q 0).val = (i 0).val := by
  unfold DotDims.lhsIdx
  rw [dif_neg (show ¬(0 : Fin S512x2048.rank) ∈ dotD.lhsBatch by decide),
    dif_pos (show (0 : Fin S512x2048.rank) ∈ dotD.lhsNonContracting by decide)]
  rfl

theorem rhs_row (i : S512x1024.Idx) (q : dotD.contr.Idx) : (dotD.rhsIdx i q 0).val = (i 1).val := by
  unfold DotDims.rhsIdx
  rw [dif_neg (show ¬(0 : Fin S1024x2048.rank) ∈ dotD.rhsBatch by decide),
    dif_pos (show (0 : Fin S1024x2048.rank) ∈ dotD.rhsNonContracting by decide)]
  rfl

/-- The product into a zero accumulator, at `(r, c)`, is the inner product of row `r` of the first operand and row `c` of
    the second: the contraction runs over the one shared coordinate. -/
theorem matmul_rows (a : FVec Ideal S512x2048 .bf16) (b : FVec Ideal S1024x2048 .bf16) (r : Fin 512) (c : Fin 1024) :
    matmul dot_S512x2048_S1024x2048_S512x1024_1_1_0_0_n_n none a b (constant S512x1024 .f32 0x00000000#32) (ix2 r c)
      = ∑ d : Fin 2048, a (ix2 r d) * b (ix2 c d) := by
  simp only [matmul]
  rw [Ideal.matmul_constant_zero_apply, ← Equiv.sum_comp (contrEquiv1 dotD 2048 rfl rfl).symm]
  refine Finset.sum_congr rfl fun k _ => ?_
  have hk := contrEquiv1_symm_val dotD 2048 rfl rfl k
  have el : dotD.lhsIdx (ix2 r c) ((contrEquiv1 dotD 2048 rfl rfl).symm k) = ix2 r k := funext fun ax => Fin.ext (by
    match ax with
    | ⟨0, _⟩ => exact lhs_row _ _
    | ⟨1, _⟩ => exact (dotD.lhsIdx_val_of_single rfl _ _).trans hk)
  have er : dotD.rhsIdx (ix2 r c) ((contrEquiv1 dotD 2048 rfl rfl).symm k) = ix2 c k := funext fun ax => Fin.ext (by
    match ax with
    | ⟨0, _⟩ => exact rhs_row _ _
    | ⟨1, _⟩ => exact (dotD.rhsIdx_val_of_single rfl _ _).trans hk)
  rw [el, er]

theorem simV_apply (x0 : FVec Ideal S512x2048 .f32) (x1 : FVec Ideal S1024x2048 .bf16) (r : Fin 512) (c : Fin 1024) :
    simV x0 x1 (ix2 r c) = simOf (unitRow x0 r) (fun d => x1 (ix2 c d)) := by
  unfold simV simOf
  rw [divf_apply, matmul_rows, shapeCast_self]
  refine congrArg₂ Ideal.div (Finset.sum_congr rfl fun d _ => ?_) rfl
  rw [unitV_apply]

/-- Entry losses from similarities: softplus of minus the similarity, spelt as the body spells it
    (`0 - s` for the negation, `0 - |x|` inside the exponential). -/
def lossV (s : FVec Ideal S512x1024 .f32) : FVec Ideal S512x1024 .f32 :=
  addf (maximumf (subf (broadcast S512x1024 (Scalar.ofBits .f32 0x00000000#32)) s) (broadcast S512x1024 (Scalar.ofBits .f32 0x00000000#32)))
    (log1p (exp (subf (broadcast S512x1024 (Scalar.ofBits .f32 0x00000000#32))
      (absf (subf (broadcast S512x1024 (Scalar.ofBits .f32 0x00000000#32)) s)))))

theorem lossV_apply (s : FVec Ideal S512x1024 .f32) (i : S512x1024.Idx) : lossV s i = lossOf (s i) := by
  unfold lossV lossOf softplus
  show max (Ideal.ofBits .f32 0x00000000#32 - s i) (Ideal.ofBits .f32 0x00000000#32)
      + Ideal.log1p (Ideal.exp (Ideal.ofBits .f32 0x00000000#32
          - max (Ideal.ofBits .f32 0x00000000#32 - s i) (-(Ideal.ofBits .f32 0x00000000#32 - s i)))) = _
  rw [Ideal.ofBits_zero_f32, LibCounts.ereal_zero_sub, LibCounts.ereal_zero_sub]

/-! ## The row's mean -/

/-- The body's last per-row value is the masked lane sum of the entry losses over the floored count. -/
theorem pay6_eq (x0 : FVec Ideal S512x2048 .f32) (x1 : FVec Ideal S1024x2048 .bf16) (x2 : Vec Ideal S512x1024 .i32) :
    k0_pay6 (F := Ideal) x0 x1 x2
      = divf (shapeCast S512x1 (multiReduction .add [1] S512
            (select (k0_pay4 (F := Ideal) x2) (lossV (simV x0 x1)) (broadcast S512x1024 (Scalar.ofBits .f32 0x00000000#32)))
            0x00000000#32 reduces_S512x1024_S512 (.inl rfl) rfl) shapeCasts_S512_S512x1)
          (maximumf (k0_pay5 (F := Ideal) x2) (broadcast S512x1 (Scalar.ofBits .f32 0x3F800000#32))) := rfl

/-- Row `r`'s mean loss over the block's 1024 columns. -/
theorem mean_apply (x0 : FVec Ideal S512x2048 .f32) (x1 : FVec Ideal S1024x2048 .bf16) (x2 : Vec Ideal S512x1024 .i32)
    (r : Fin 512) (u : Fin 1) :
    k0_pay6 (F := Ideal) x0 x1 x2 (ix2 r u)
      = meanOf (∑ c : Fin 1024, Scalar.select (posBit (x2 (ix2 r c))) (lossOf (simOf (unitRow x0 r) (fun d => x1 (ix2 c d)))) 0)
          (∑ c : Fin 1024, (posBit (x2 (ix2 r c))).toNat) := by
  rw [pay6_eq, divf_apply, maximumf_apply, count_apply]
  unfold meanOf
  refine congrArg₂ Ideal.div ?_ ?_
  · refine (Cert.LibKeepdims.shapeCast_a_a1_apply _ _ r u).trans ?_
    refine (Cert.LibKeepdims.multiReduction_add_last_ab _ _ _ _ _ r).trans ?_
    refine Finset.sum_congr rfl fun c _ => ?_
    rw [select_apply, bit_apply, lossV_apply, simV_apply]
    show Scalar.select _ _ (Ideal.ofBits .f32 0x00000000#32) = _
    rw [Ideal.ofBits_zero_f32]
  · show max _ (Ideal.ofBits .f32 0x3F800000#32) = _
    rw [Ideal.ofBits_one_f32, LibCounts.max_count_one]

/-! ## The block's two partial results -/

/-- The sum over the block's rows of the means of the rows whose count is positive. -/
theorem blockSum_apply (v32 v39 : FVec Ideal S512x1 .f32) :
    k0_pay2 (F := Ideal) v32 v39 (Scalar.ofBits .f32 0x00000000#32) (ix3 (0 : Fin 1) (0 : Fin 1) (0 : Fin 1))
      = ∑ r : Fin 512, Scalar.select (Ideal.cmp .ogt (v32 (ix2 r (0 : Fin 1))) 0) (v39 (ix2 r (0 : Fin 1))) 0 := by
  unfold k0_pay2
  refine (shapeCast_apply _ _ _ (ix2 (0 : Fin 1) (0 : Fin 1)) rfl).trans ?_
  refine (Cert.LibKeepdims.shapeCast_a_a1_apply _ _ (0 : Fin 1) (0 : Fin 1)).trans ?_
  refine (Cert.LibTileSum.multiReduction_add_first_a1 _ _ _ _ _ (0 : Fin 1)).trans ?_
  refine Finset.sum_congr rfl fun r _ => ?_
  show Scalar.select (Ideal.cmp .ogt (v32 (ix2 r 0)) (Ideal.ofBits .f32 0x00000000#32)) (v39 (ix2 r 0)) (Ideal.ofBits .f32 0x00000000#32) = _
  rw [Ideal.ofBits_zero_f32]

/-- The number of the block's rows whose count is positive, as a sum of 0/1 floats. -/
theorem blockCount_apply (v32 : FVec Ideal S512x1 .f32) :
    k0_pay3 (F := Ideal) v32 (Scalar.ofBits .f32 0x00000000#32) (ix3 (0 : Fin 1) (0 : Fin 1) (0 : Fin 1))
      = (((∑ r : Fin 512, (Ideal.cmp .ogt (v32 (ix2 r (0 : Fin 1))) 0).toNat : ℕ) : ℝ) : EReal) := by
  unfold k0_pay3
  refine (shapeCast_apply _ _ _ (ix2 (0 : Fin 1) (0 : Fin 1)) rfl).trans ?_
  refine (Cert.LibKeepdims.shapeCast_a_a1_apply _ _ (0 : Fin 1) (0 : Fin 1)).trans ?_
  refine (Cert.LibTileSum.multiReduction_add_first_a1 _ _ _ _ _ (0 : Fin 1)).trans ?_
  rw [← LibCounts.coe_sum_natCast]
  refine Finset.sum_congr rfl fun r _ => ?_
  show FloatOps.sitofp (F := Ideal) .f32 ((Ideal.cmp .ogt (v32 (ix2 r 0)) (Ideal.ofBits .f32 0x00000000#32)).setWidth 32) = _
  rw [Ideal.ofBits_zero_f32, LibCounts.sitofp_bit]

end Cert.SupCon.Body

end
-- ==== Proof.KernelBlocks.lean ====
/-
  From blocks to arrays: what the two result arrays of the region hold after the run.

  Grid point `t` reads feature rows 512 t … 512 t + 511, all 1024 prototype rows and the labels of those feature rows, and
  writes entry `t` of each of the two 8-entry result arrays: the sum of the means of its rows that have a positive label,
  and the number of such rows. The eight one-entry blocks tile each result array, so after the run entry `t` is what
  point `t` wrote.
-/
import proofs.«121065_j19361712571095_2_alg».proof.Proof.Gen.KernelIdeal.Frame
import proofs.«121065_j19361712571095_2_alg».proof.Proof.KernelBody
import Idealize.ShloMosaic.Lib.Pipeline.Value
import Idealize.ShloMosaic.Lib.Tactic

noncomputable section

namespace Cert.SupCon.Blocks

open Idealize.ShloMosaic Idealize.ShloMosaic.TcCoe Idealize.ShloMosaic.ValueIdx Idealize.SL.Sem
open Idealize.ShloMosaic.Pipeline (Dat)
open Cert.KernelIdeal Cert.KernelIdeal.Gen Cert.SupCon

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A one-entry block has one index. -/
instance : Subsingleton S1x1x1.Idx := ⟨fun a b => funext fun d => Fin.ext (by
  have ha := (a d).isLt
  have hb := (b d).isLt
  have hs : S1x1x1.size d = 1 := by fin_cases d <;> rfl
  omega)⟩

/-! ## One block's two results from its three loaded blocks -/

/-- How many of row `r`'s 1024 labels are positive. -/
def rowCount (x2 : Vec Ideal S512x1024 .i32) (r : Fin 512) : ℕ := ∑ k : Fin 1024, (posBit (x2 (ix2 r k))).toNat

/-- Row `r`'s mean loss over its positive labels, against the block's prototype rows. -/
def rowMean (x0 : FVec Ideal S512x2048 .f32) (x1 : FVec Ideal S1024x2048 .bf16) (x2 : Vec Ideal S512x1024 .i32) (r : Fin 512) : EReal :=
  meanOf (∑ k : Fin 1024, Scalar.select (posBit (x2 (ix2 r k))) (lossOf (simOf (unitRow x0 r) (fun d => x1 (ix2 k d)))) 0)
    (rowCount x2 r)

/-- The first result's block after the body: the sum of the means of the rows that have a positive label. -/
theorem out3_eq (x0 : Vec Ideal S512x2048 .f32) (x1 : Vec Ideal S1024x2048 .bf16) (x2 : Vec Ideal S512x1024 .i32) :
    out0_3 (F := Ideal) x0 x1 x2 = fun _ => ∑ r : Fin 512, if 0 < rowCount x2 r then rowMean x0 x1 x2 r else 0 := by
  unfold out0_3
  rw [View.canon_unit_zero hz3]
  simp only [View.ld_unit_zero (S := S512x2048) hz2, View.ld_unit_zero (S := S1024x2048) hz2, View.ld_unit_zero (S := S512x1024) hz2]
  funext j
  obtain rfl : j = ix3 (0 : Fin 1) (0 : Fin 1) (0 : Fin 1) := Subsingleton.elim _ _
  rw [Body.blockSum_apply]
  refine Finset.sum_congr rfl fun r _ => ?_
  rw [Body.count_apply, Body.mean_apply, LibCounts.cmp_ogt_count, LibCounts.select_ofBool]
  rfl

/-- The second result's block after the body: the number of rows that have a positive label. -/
theorem out4_eq (x0 : Vec Ideal S512x2048 .f32) (x1 : Vec Ideal S1024x2048 .bf16) (x2 : Vec Ideal S512x1024 .i32) :
    out0_4 (F := Ideal) x0 x1 x2 = fun _ => (((∑ r : Fin 512, if 0 < rowCount x2 r then 1 else 0 : ℕ) : ℝ) : EReal) := by
  unfold out0_4
  rw [View.canon_unit_zero hz3]
  simp only [View.ld_unit_zero (S := S512x1024) hz2]
  funext j
  obtain rfl : j = ix3 (0 : Fin 1) (0 : Fin 1) (0 : Fin 1) := Subsingleton.elim _ _
  rw [Body.blockCount_apply]
  refine congrArg (fun n : ℕ => ((n : ℝ) : EReal)) (Finset.sum_congr rfl fun r _ => ?_)
  rw [Body.count_apply, LibCounts.cmp_ogt_count, LibCounts.toNat_ofBool]
  rfl

/-! ## The grid -/

theorem hN : cfg0.N = 8 := N_0

/-- The printed index maps over the grid: the feature and label windows and both result windows move with the point,
    the prototype window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Row `r` of point `t`'s block is row `512 t + r` of the array. -/
def grow (t : Fin cfg0.N) (r : Fin 512) : Fin 4096 :=
  ⟨t.val * 512 + r.val, by have ht := t.isLt; have h8 : cfg0.N = 8 := hN; have hr := r.isLt; omega⟩

/-- The feature window's block at point `t`: rows `512 t …` of the features. -/
theorem iblk0_apply (c : Dev nD) (t : Fin cfg0.N) (r : Fin 512) (d : Fin 2048) :
    (iblk m c 0 t : Vec Ideal S512x2048 .f32) (ix2 r d)
      = (m ((c : Thread nD τ).loc main_arg0) : S4096x2048.Idx → EReal) (ix2 (grow t r) d) := by
  obtain ⟨h00, h01, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * r.val = t.val * 512 + r.val; rw [h00]; omega
  | ⟨1, _⟩ => show win0_0.index t (1 : Fin 2) * 2048 + 1 * d.val = d.val; rw [h01]; omega

/-- The prototype window's block at every point: the whole array of unit prototype rows as the region finds it. -/
theorem iblk1_apply (c : Dev nD) (t : Fin cfg0.N) (k : Fin 1024) (d : Fin 2048) :
    (iblk m c 1 t : Vec Ideal S1024x2048 .bf16) (ix2 k d) = (V m c main_v10 : S1024x2048.Idx → EReal) (ix2 k d) := by
  obtain ⟨-, -, h10, h11, -⟩ := idx_facts t
  unfold iblk
  rw [View.read_apply]
  show V m c main_v10 _ = _
  congr 1
  funext a
  apply Fin.ext
  match a with
  | ⟨0, _⟩ => show win0_1.index t (0 : Fin 2) * 1024 + 1 * k.val = k.val; rw [h10]; omega
  | ⟨1, _⟩ => show win0_1.index t (1 : Fin 2) * 2048 + 1 * d.val = d.val; rw [h11]; omega

/-- The label window's block at point `t`: rows `512 t …` of the padded labels. -/
theorem iblk2_apply (c : Dev nD) (t : Fin cfg0.N) (r : Fin 512) (k : Fin 1024) :
    (iblk m c 2 t : Vec Ideal S512x1024 .i32) (ix2 r k) = (V m c main_v1 : S4096x1024.Idx → BitVec 32) (ix2 (grow t r) k) := by
  obtain ⟨-, -, -, -, h20, h21, -⟩ := idx_facts t
  unfold iblk
  rw [View.read_apply]
  show V m c main_v1 _ = _
  congr 1
  funext a
  apply Fin.ext
  match a with
  | ⟨0, _⟩ => show win0_2.index t (0 : Fin 2) * 512 + 1 * r.val = t.val * 512 + r.val; rw [h20]; omega
  | ⟨1, _⟩ => show win0_2.index t (1 : Fin 2) * 1024 + 1 * k.val = k.val; rw [h21]; omega

/-! ## The two result arrays after the run -/

/-- Point `t`'s partial sum and partial count, from its blocks. -/
def partSum (c : Dev nD) (t : Fin cfg0.N) : EReal :=
  ∑ r : Fin 512, if 0 < rowCount (iblk m c 2 t) r then rowMean (iblk m c 0 t) (iblk m c 1 t) (iblk m c 2 t) r else 0
def partCount (c : Dev nD) (t : Fin cfg0.N) : ℕ := ∑ r : Fin 512, if 0 < rowCount (iblk m c 2 t) r then 1 else 0

/-- The point that writes entry `i` of a result array. -/
def pointOf (i : S8x1x1.Idx) : Fin cfg0.N := ⟨(i 0).val, by rw [hN]; exact (i 0).isLt⟩

/-- The first result array as one function of its index: the partial sum of the point that writes the entry. -/
def sums (c : Dev nD) : S8x1x1.Idx → EReal := fun i => partSum m c (pointOf i)
/-- The second: that point's partial count, as a float. -/
def counts (c : Dev nD) : S8x1x1.Idx → EReal := fun i => (((partCount m c (pointOf i) : ℕ) : ℝ) : EReal)

theorem pointOf_emb3 (t : Fin cfg0.N) (j : S1x1x1.Idx) : pointOf (((cfg0.win 3).blk t).view.emb j) = t := by
  obtain ⟨-, -, -, -, -, -, h30, -⟩ := idx_facts t
  apply Fin.ext
  show win0_3.index t (0 : Fin 3) * 1 + 1 * (j 0).val = t.val
  have hj : (j 0).val < 1 := (j 0).isLt
  rw [h30]; omega

theorem pointOf_emb4 (t : Fin cfg0.N) (j : S1x1x1.Idx) : pointOf (((cfg0.win 4).blk t).view.emb j) = t := by
  obtain ⟨-, -, -, -, -, -, -, -, -, h40, -⟩ := idx_facts t
  apply Fin.ext
  show win0_4.index t (0 : Fin 3) * 1 + 1 * (j 0).val = t.val
  have hj : (j 0).val < 1 := (j 0).isLt
  rw [h40]; omega

/-- What point `t` writes back to the first result array is block `t` of `sums`. -/
theorem flushed3_eq (c : Dev nD) (t : Fin cfg0.N) :
    (dats m 0 c).flushed 3 t = ((cfg0.win 3).blk t).view.read (Elt Ideal) (sums m c) := by
  show (cfg0.win 3).cut (grid0.coords t) ((dats m 0 c).after 3 t) = _
  rw [after0_3, out3_eq]
  funext j
  show partSum m c t = sums m c (((cfg0.win 3).blk t).view.emb j)
  unfold sums
  rw [pointOf_emb3]

theorem flushed4_eq (c : Dev nD) (t : Fin cfg0.N) :
    (dats m 0 c).flushed 4 t = ((cfg0.win 4).blk t).view.read (Elt Ideal) (counts m c) := by
  show (cfg0.win 4).cut (grid0.coords t) ((dats m 0 c).after 4 t) = _
  rw [after0_4, out4_eq]
  funext j
  show (((partCount m c t : ℕ) : ℝ) : EReal) = counts m c (((cfg0.win 4).blk t).view.emb j)
  unfold counts
  rw [pointOf_emb4]

/-- An index of the first result array is in point `t`'s block iff each coordinate is in the block's range. -/
theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v11_0).slice (win0_3.rect t)).set ↔ _
  rw [View.set_slice_whole, Rect.mem_set_unit]
  exact Iff.rfl

theorem mem_blk4 (t : Fin cfg0.N) (i : S8x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v11_1).slice (win0_4.rect t)).set ↔ _
  rw [View.set_slice_whole, Rect.mem_set_unit]
  exact Iff.rfl

/-- Every entry of the first result array is in the block of the point that writes it. -/
theorem cover3 (i : S8x1x1.Idx) : ∃ t : Fin cfg0.N, (cfg0.win 3).flush t = true ∧ i ∈ ((cfg0.win 3).blk t).view.set := by
  have h1 : (i 1).val < 1 := (i 1).isLt
  have h2 : (i 2).val < 1 := (i 2).isLt
  obtain ⟨-, -, -, -, -, -, e0, e1, e2, -⟩ := idx_facts (pointOf i)
  have e0' : win0_3.index (pointOf i) (0 : Fin 3) = (i 0).val := e0
  refine ⟨pointOf i, flush0_3 _, ?_⟩
  rw [mem_blk3]
  intro a
  match a with
  | ⟨0, _⟩ => show win0_3.index (pointOf i) (0 : Fin 3) * 1 ≤ (i 0).val ∧ (i 0).val < win0_3.index (pointOf i) (0 : Fin 3) * 1 + 1; omega
  | ⟨1, _⟩ => show win0_3.index (pointOf i) (1 : Fin 3) * 1 ≤ (i 1).val ∧ (i 1).val < win0_3.index (pointOf i) (1 : Fin 3) * 1 + 1; omega
  | ⟨2, _⟩ => show win0_3.index (pointOf i) (2 : Fin 3) * 1 ≤ (i 2).val ∧ (i 2).val < win0_3.index (pointOf i) (2 : Fin 3) * 1 + 1; omega

theorem cover4 (i : S8x1x1.Idx) : ∃ t : Fin cfg0.N, (cfg0.win 4).flush t = true ∧ i ∈ ((cfg0.win 4).blk t).view.set := by
  have h1 : (i 1).val < 1 := (i 1).isLt
  have h2 : (i 2).val < 1 := (i 2).isLt
  obtain ⟨-, -, -, -, -, -, -, -, -, e0, e1, e2⟩ := idx_facts (pointOf i)
  have e0' : win0_4.index (pointOf i) (0 : Fin 3) = (i 0).val := e0
  refine ⟨pointOf i, flush0_4 _, ?_⟩
  rw [mem_blk4]
  intro a
  match a with
  | ⟨0, _⟩ => show win0_4.index (pointOf i) (0 : Fin 3) * 1 ≤ (i 0).val ∧ (i 0).val < win0_4.index (pointOf i) (0 : Fin 3) * 1 + 1; omega
  | ⟨1, _⟩ => show win0_4.index (pointOf i) (1 : Fin 3) * 1 ≤ (i 1).val ∧ (i 1).val < win0_4.index (pointOf i) (1 : Fin 3) * 1 + 1; omega
  | ⟨2, _⟩ => show win0_4.index (pointOf i) (2 : Fin 3) * 1 ≤ (i 2).val ∧ (i 2).val < win0_4.index (pointOf i) (2 : Fin 3) * 1 + 1; omega

/-- The result arrays after the run. -/
theorem final3 (c : Dev nD) : (dats m 0 c).arrAt 3 cfg0.N = sums m c :=
  (dats m 0 c).arrAt_eq_of_cover 3 (sums m c) (fun t _ => flushed3_eq m c t) cover3

theorem final4 (c : Dev nD) : (dats m 0 c).arrAt 4 cfg0.N = counts m c :=
  (dats m 0 c).arrAt_eq_of_cover 4 (counts m c) (fun t _ => flushed4_eq m c t) cover4

end Cert.SupCon.Blocks

end
-- ==== Proof.KernelHost.lean ====
/-
  What the host operations around the one region do, at the ideal values.

  Before the region: the labels are padded from 1000 to 1024 columns by zero words, and the prototypes are padded from
  1000 to 1024 rows by zeros, each row then divided by its Euclidean length floored at ε. After the region: the eight
  partial sums and the eight partial counts are each added up, and the result is the first total over the maximum of
  the second and one when the second is positive, zero otherwise.
-/
import proofs.«121065_j19361712571095_2_alg».proof.Proof.Gen.KernelIdeal.Frame
import proofs.«121065_j19361712571095_2_alg».proof.Proof.Spec
import proofs.«121065_j19361712571095_2_alg».proof.Proof.LibCounts
import Idealize.ShloMosaic.Lib.StableHlo.Run
import Idealize.ShloMosaic.Lib.KernelVsHost
import Idealize.ShloMosaic.Lib.Pipeline.Value
import Idealize.ShloMosaic.PureOps.Ideal.Laws
import Idealize.ShloMosaic.Lib.IdealHost
import Idealize.ShloMosaic.Lib.Pipeline.FrameSuffix

set_option maxRecDepth 16384

noncomputable section

namespace Cert.SupCon.Host

open Idealize.ShloMosaic Idealize.ShloMosaic.TcCoe Idealize.ShloMosaic.ValueIdx Idealize.SL.Sem
open Cert.KernelIdeal Cert.KernelIdeal.Gen Cert.SupCon
open Idealize.ShloMosaic.StableHlo (after_cons after_nil)

variable (m : (ℓ : Loc nD τ sig) → Buf (Elt Ideal) ℓ)

/-- The labels as the region finds them: the argument padded by 24 columns of zero words. -/
theorem labels_eq (c : Dev nD) :
    (V m c main_v1 : S4096x1024.Idx → BitVec 32)
      = pad S4096x1024 ![0, 0] ![0, 24] ![0, 0] (m ((c : Thread nD τ).loc main_arg2)) (id (constantI S_ 32 0#32))
          pads_S4096x1000_S4096x1024_000_0240 h_S_ := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- A padded label inside the first 1000 columns is the argument's label there. -/
theorem labels_apply_in (c : Dev nD) (R : Fin 4096) (k : Fin 1000) :
    V m c main_v1 (ix2 R (Fin.castLE (by decide) k : Fin 1024)) = m ((c : Thread nD τ).loc main_arg2) (ix2 R k) := by
  have e := labels_eq m c
  show (V m c main_v1 : S4096x1024.Idx → BitVec 32) (ix2 R (Fin.castLE (by decide) k : Fin 1024)) = _
  rw [e]
  refine pad_apply_of_inside _ _ _ _ _ _ _ _ (ix2 R k) ?_
  intro a
  match a with
  | ⟨0, _⟩ => show R.val = 0 + R.val * (0 + 1); omega
  | ⟨1, _⟩ => show k.val = 0 + k.val * (0 + 1); omega

/-- A padded label in the last 24 columns is the zero word. -/
theorem labels_apply_out (c : Dev nD) (R : Fin 4096) (k : Fin 1024) (hk : 1000 ≤ k.val) :
    V m c main_v1 (ix2 R k) = 0#32 := by
  have e := labels_eq m c
  show (V m c main_v1 : S4096x1024.Idx → BitVec 32) (ix2 R k) = _
  rw [e]
  refine (pad_apply_of_not_inside _ _ _ _ _ _ _ _ (1 : Fin 2) ?_).trans rfl
  intro hin
  have h3 : (k.val - 0) / (0 + 1) < 1000 := hin.2.2
  omega

/-! ## The prototypes before the region -/

/-- The prototypes padded from 1000 to 1024 rows by zeros. -/
def padProtos (x : S1000x2048.Idx → EReal) : S1024x2048.Idx → EReal :=
  pad S1024x2048 ![0, 0] ![24, 0] ![0, 0] x (sitofp (F := Ideal) .f32 (constantI S_ 32 0#32))
    pads_S1000x2048_S1024x2048_0240_000 h_S_

/-- Each row's sum of squares, added up from zero. -/
def sqSum (v : S1024x2048.Idx → EReal) : S1024.Idx → EReal :=
  Host.reduceAdd (F := Ideal) (φ := .f32) (mulf (F := Ideal) (φ := .f32) v v) (constant (F := Ideal) S_ .f32 0x00000000#32)
    reducesTo_S1024x2048_S1024_d1 h_S_

/-- Each row's Euclidean length floored at ε, as a column. -/
def normCol (v : S1024x2048.Idx → EReal) : S1024x1.Idx → EReal :=
  maximumf (F := Ideal) (φ := .f32)
    (Host.sqrt (F := Ideal) (φ := .f32) (broadcastInDim S1024x1 ![0] bcast_S1024_S1024x1_0 (sqSum v)))
    (broadcastInDim S1024x1 ![] bcast_S_S1024x1 (constant (F := Ideal) S_ .f32 0x2B8CBCCC#32))

/-- The prototypes as the region finds them, as one function of the argument: padded, then every row divided by its
    floored length (the narrowing to the shorter format is the identity on the extended reals). -/
def protoOps (x : S1000x2048.Idx → EReal) : S1024x2048.Idx → EReal :=
  truncf (F := Ideal) (φ := .f32) .bf16
    (Host.divf (F := Ideal) (φ := .f32) (padProtos x)
      (broadcastInDim S1024x2048 ![0, 1] bcast_S1024x1_S1024x2048_0_1 (normCol (padProtos x))))
    bitsLt_bf16_f32

/-- A padded prototype entry in the first 1000 rows is the argument's entry there. -/
theorem padProtos_apply_in (x : S1000x2048.Idx → EReal) (k : Fin 1000) (d : Fin 2048) :
    padProtos x (ix2 (Fin.castLE (by decide) k : Fin 1024) d) = x (ix2 k d) := by
  unfold padProtos
  refine pad_apply_of_inside _ _ _ _ _ _ _ _ (ix2 k d) ?_
  intro a
  match a with
  | ⟨0, _⟩ => show k.val = 0 + k.val * (0 + 1); omega
  | ⟨1, _⟩ => show d.val = 0 + d.val * (0 + 1); omega

/-- A row's sum of squares is the sum over its 2048 coordinates of the squares. -/
theorem sqSum_apply (v : S1024x2048.Idx → EReal) (K : Fin 1024) :
    sqSum v (ix1 K) = ∑ d : Fin 2048, v (ix2 K d) * v (ix2 K d) := by
  have h : S1024x2048.Reduces [1] S1024 := by decide
  have e : ∀ d : Fin 2048, h.lift (ix1 K) d = ix2 K d := fun d => by
    funext c
    match c with
    | ⟨0, _⟩ => rfl
    | ⟨1, _⟩ => rfl
  refine (Ideal.hostReduceAdd_single reducesTo_S1024x2048_S1024_d1 h (fun i => v i * v i)
    (Ideal.ofBits .f32 0x00000000#32) (ix1 K)).trans ?_
  rw [Ideal.ofBits_zero_f32, zero_add]
  exact Finset.sum_congr rfl fun d _ => by rw [e d]

/-- A row's floored length is the maximum of the square root of its sum of squares and ε. -/
theorem normCol_apply (v : S1024x2048.Idx → EReal) (K : Fin 1024) :
    normCol v (ix2 K (0 : Fin 1)) = max (Ideal.sqrt (∑ d : Fin 2048, v (ix2 K d) * v (ix2 K d))) eps := by
  show max (Ideal.sqrt (broadcastInDim S1024x1 ![0] bcast_S1024_S1024x1_0 (sqSum v) (ix2 K (0 : Fin 1))))
      (broadcastInDim S1024x1 ![] bcast_S_S1024x1 (constant (F := Ideal) S_ .f32 0x2B8CBCCC#32) (ix2 K (0 : Fin 1))) = _
  rw [broadcastInDim_apply _ _ _ _ (ix1 K) (by
      intro a
      match a with
      | ⟨0, _⟩ => rfl),
    broadcastInDim_scalar_apply, sqSum_apply]
  rfl

/-- On a row below 1000 the prototypes the region finds are the argument's row scaled to unit length. -/
theorem protoOps_apply (x : S1000x2048.Idx → EReal) (k : Fin 1000) (d : Fin 2048) :
    protoOps x (ix2 (Fin.castLE (by decide) k : Fin 1024) d) = unitRow x k d := by
  show Ideal.div (padProtos x (ix2 (Fin.castLE (by decide) k : Fin 1024) d))
      (broadcastInDim S1024x2048 ![0, 1] bcast_S1024x1_S1024x2048_0_1 (normCol (padProtos x))
        (ix2 (Fin.castLE (by decide) k : Fin 1024) d)) = Ideal.div (x (ix2 k d)) (rowNorm x k)
  rw [padProtos_apply_in, broadcastInDim_apply _ _ _ _ (ix2 (Fin.castLE (by decide) k : Fin 1024) (0 : Fin 1)) (by
      intro a
      match a with
      | ⟨0, _⟩ => rfl
      | ⟨1, _⟩ => rfl),
    normCol_apply]
  simp only [padProtos_apply_in]
  rfl

/-- The prototypes as the region finds them are the host operations' composition on the argument. -/
theorem protos_eq (c : Dev nD) :
    (V m c main_v10 : S1024x2048.Idx → EReal) = protoOps (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- On a row below 1000 the prototypes the region finds are the argument's row scaled to unit length. -/
theorem protos_apply (c : Dev nD) (k : Fin 1000) (d : Fin 2048) :
    V m c main_v10 (ix2 (Fin.castLE (by decide) k : Fin 1024) d)
      = Cert.SupCon.unitRow (m ((c : Thread nD τ).loc main_arg1)) k d := by
  have e := protos_eq m c
  show (V m c main_v10 : S1024x2048.Idx → EReal) (ix2 (Fin.castLE (by decide) k : Fin 1024) d) = _
  rw [e]
  exact protoOps_apply _ k d

/-! ## The lines after the region -/

/-- The operations after the region as one function of the partial sums `A3` and the partial counts `A4`. -/
def tailOps (A3 A4 : S8x1x1.Idx → EReal) : S_.Idx → EReal :=
  select
    (cmpf .ogt (Host.reduceAdd (F := Ideal) (φ := .f32) A4 (constant (F := Ideal) S_ .f32 0x00000000#32) reducesTo_S8x1x1_S_d0_1_2 h_S_)
      (constant (F := Ideal) S_ .f32 0x00000000#32))
    (Host.divf (F := Ideal) (φ := .f32)
      (Host.reduceAdd (F := Ideal) (φ := .f32) A3 (constant (F := Ideal) S_ .f32 0x00000000#32) reducesTo_S8x1x1_S_d0_1_2 h_S_)
      (maximumf (F := Ideal) (φ := .f32)
        (Host.reduceAdd (F := Ideal) (φ := .f32) A4 (constant (F := Ideal) S_ .f32 0x00000000#32) reducesTo_S8x1x1_S_d0_1_2 h_S_)
        (constant (F := Ideal) S_ .f32 0x3F800000#32)))
    (id (constant (F := Ideal) S_ .f32 0x00000000#32))

/-- The operations after the region, on any partial sums `A3` and partial counts `A4`: each is added up from zero, and
    the result is the first total over the maximum of the second and one when the second is positive, zero otherwise. -/
theorem tailOps_apply (A3 A4 : S8x1x1.Idx → EReal) (j : S_.Idx) :
    tailOps A3 A4 j = Scalar.select (Ideal.cmp .ogt (∑ i : S8x1x1.Idx, A4 i) 0)
      (Ideal.div (∑ i : S8x1x1.Idx, A3 i) (max (∑ i : S8x1x1.Idx, A4 i) 1)) 0 := by
  have h3 : Ideal.hostReduceAdd reducesTo_S8x1x1_S_d0_1_2 A3 0 j = ∑ i : S8x1x1.Idx, A3 i := by
    rw [Ideal.hostReduceAdd_total reducesTo_S8x1x1_S_d0_1_2 (fun b => b.elim0), zero_add]
  have h4 : Ideal.hostReduceAdd reducesTo_S8x1x1_S_d0_1_2 A4 0 j = ∑ i : S8x1x1.Idx, A4 i := by
    rw [Ideal.hostReduceAdd_total reducesTo_S8x1x1_S_d0_1_2 (fun b => b.elim0), zero_add]
  show Scalar.select
      (Ideal.cmp .ogt (Ideal.hostReduceAdd reducesTo_S8x1x1_S_d0_1_2 A4 (Ideal.ofBits .f32 0x00000000#32) j) (Ideal.ofBits .f32 0x00000000#32))
      (Ideal.div (Ideal.hostReduceAdd reducesTo_S8x1x1_S_d0_1_2 A3 (Ideal.ofBits .f32 0x00000000#32) j)
        (max (Ideal.hostReduceAdd reducesTo_S8x1x1_S_d0_1_2 A4 (Ideal.ofBits .f32 0x00000000#32) j) (Ideal.ofBits .f32 0x3F800000#32)))
      (Ideal.ofBits .f32 0x00000000#32) = _
  rw [Ideal.ofBits_zero_f32, Ideal.ofBits_one_f32, h3, h4]

section Tail
variable (dats' : (p : Fin 1) → (c : Dev nD) → Pipeline.Dat τ (Elt Ideal) Unit ℕ (UR sig nD τ) ℕ (cfgs p) c)

/-- After the region the partial sums' array holds what the region's last write-back left. -/
theorem withArrays_sums (c : Dev nD) :
    (Pipeline.withArrays (cfgs 0).spec c (V0 m c) (fun w => (dats' 0 c).arrAt w (cfgs 0).N) (Proc.devRef .tc main_v11_0)
      : S8x1x1.Idx → EReal) = (dats' 0 c).arrAt 3 cfg0.N :=
  Pipeline.withArrays_arr spec0 winFacts0.arr_inj c _ _ 3

/-- After the region the partial counts' array holds what the region's last write-back left. -/
theorem withArrays_counts (c : Dev nD) :
    (Pipeline.withArrays (cfgs 0).spec c (V0 m c) (fun w => (dats' 0 c).arrAt w (cfgs 0).N) (Proc.devRef .tc main_v11_1)
      : S8x1x1.Idx → EReal) = (dats' 0 c).arrAt 4 cfg0.N :=
  Pipeline.withArrays_arr spec0 winFacts0.arr_inj c _ _ 4

/-- The result buffer after the lines that follow the region is those lines' operations applied to the two arrays the
    region leaves (stated against any right-hand side equal to that). -/
theorem tail_after (c : Dev nD) (R : S_.Idx → EReal)
    (hR : tailOps
        (Pipeline.withArrays (cfgs 0).spec c (V0 m c) (fun w => (dats' 0 c).arrAt w (cfgs 0).N) (Proc.devRef .tc main_v11_0))
        (Pipeline.withArrays (cfgs 0).spec c (V0 m c) (fun w => (dats' 0 c).arrAt w (cfgs 0).N) (Proc.devRef .tc main_v11_1)) = R) :
    (Pipeline.afterTail₀ cfgs dats' 0 (V0 m) [hostOps1, hostOps1_1] c main_v17 : S_.Idx → EReal) = R := by
  unfold Pipeline.afterTail₀
  simp only [hostOps1, hostOps1_1, List.flatten_cons, List.flatten_nil, List.append_nil, List.cons_append, List.nil_append]
  after_results
  exact hR

/-- The result buffer after the lines that follow the region: the total of the partial sums over the maximum of the total
    of the partial counts and one when that total is positive, zero otherwise. -/
theorem tail_eq (c : Dev nD) :
    (Pipeline.afterTail₀ cfgs dats' 0 (V0 m) [hostOps1, hostOps1_1] c main_v17 : S_.Idx → EReal)
      = fun _ => Scalar.select (Ideal.cmp .ogt (∑ i : S8x1x1.Idx, (dats' 0 c).arrAt 4 cfg0.N i) 0)
          (Ideal.div (∑ i : S8x1x1.Idx, (dats' 0 c).arrAt 3 cfg0.N i)
            (max (∑ i : S8x1x1.Idx, (dats' 0 c).arrAt 4 cfg0.N i) 1)) 0 :=
  tail_after m dats' c _
    ((congr (congrArg tailOps (withArrays_sums m dats' c)) (withArrays_counts m dats' c)).trans
      (funext fun j => tailOps_apply _ _ j))

end Tail

end Cert.SupCon.Host

end
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.KernelValue.lean ====
/-
  The idealized kernel's result is the specification.

  Point `t`'s rows are rows 512 t … 512 t + 511 of the features and of the labels; the padded label columns are zero, so
  they count nothing and mask their entries out, and on the first 1000 prototype rows the padded, scaled prototypes are the
  argument's unit rows. Hence each point's partial sum and partial count are the specification's sums over its 512 rows,
  the eight partial results add up to the sums over all 4096 rows (a sum over 8 · 512 positions taken block by block), and
  the lines after the region divide and select as the specification does.
-/
import proofs.«121065_j19361712571095_2_alg».proof.Proof.KernelBlocks
import proofs.«121065_j19361712571095_2_alg».proof.Proof.KernelHost
import proofs.«121065_j19361712571095_2_alg».proof.Proof.LibSumBlocks

noncomputable section

namespace Cert.SupCon.Value

open Idealize.ShloMosaic Idealize.ShloMosaic.TcCoe Idealize.ShloMosaic.ValueIdx Idealize.SL.Sem
open Idealize.ShloMosaic.Pipeline (Dat)
open Cert.KernelIdeal Cert.KernelIdeal.Gen Cert.SupCon Cert.SupCon.Blocks

variable (m : (ℓ : Loc nD τ sig) → Buf (Elt Ideal) ℓ) (ρ : Dev nD → PrngReg)

/-- The three argument arrays as launched. -/
abbrev fA (c : Dev nD) : (⟨2, ![4096, 2048]⟩ : Shape).Idx → EReal := m ((c : Thread nD τ).loc main_arg0)
abbrev pA (c : Dev nD) : (⟨2, ![1000, 2048]⟩ : Shape).Idx → EReal := m ((c : Thread nD τ).loc main_arg1)
abbrev lA (c : Dev nD) : (⟨2, ![4096, 1000]⟩ : Shape).Idx → BitVec 32 := m ((c : Thread nD τ).loc main_arg2)

/-! ## One point's rows -/

/-- Two rows with the same entries have the same unit row. -/
theorem unitRow_congr {n n' : ℕ} (x : (⟨2, ![n, 2048]⟩ : Shape).Idx → EReal) (y : (⟨2, ![n', 2048]⟩ : Shape).Idx → EReal)
    (r : Fin n) (r' : Fin n') (h : ∀ d, x (ix2 r d) = y (ix2 r' d)) : unitRow x r = unitRow y r' := by
  funext d
  unfold unitRow rowNorm
  simp only [h]

/-- A block row against the whole arrays: if the block's feature row is row `R` of the features, its label row is row `R`
    of the labels followed by zeros, and the first 1000 prototype rows of the block are the unit rows of the prototypes,
    then the row's count over the 1024 columns is row `R`'s count and its mean is row `R`'s mean loss: a padded column's
    label is zero, which counts nothing and masks its entry out. -/
theorem row_congr (x0 : FVec Ideal S512x2048 .f32) (x1 : FVec Ideal S1024x2048 .bf16) (x2 : Vec Ideal S512x1024 .i32) (r : Fin 512)
    (f : (⟨2, ![4096, 2048]⟩ : Shape).Idx → EReal) (p : (⟨2, ![1000, 2048]⟩ : Shape).Idx → EReal)
    (l : (⟨2, ![4096, 1000]⟩ : Shape).Idx → BitVec 32) (R : Fin 4096)
    (h0 : ∀ d, x0 (ix2 r d) = f (ix2 R d))
    (h1 : ∀ (k : Fin 1000) (d : Fin 2048), x1 (ix2 (Fin.castLE (by decide) k : Fin 1024) d) = unitRow p k d)
    (h2in : ∀ k : Fin 1000, x2 (ix2 r (Fin.castLE (by decide) k : Fin 1024)) = l (ix2 R k))
    (h2out : ∀ k : Fin 1024, 1000 ≤ k.val → x2 (ix2 r k) = 0#32) :
    rowCount x2 r = cnt l R ∧ rowMean x0 x1 x2 r = rowLoss f p l R := by
  have hc : rowCount x2 r = cnt l R := by
    unfold rowCount cnt
    rw [LibCounts.sum_pad (fun k => (posBit (x2 (ix2 r k))).toNat) (fun k hk => by rw [h2out k hk, posBit_zero]; rfl)]
    exact Finset.sum_congr rfl fun k _ => by rw [h2in]
  refine ⟨hc, ?_⟩
  unfold rowMean rowLoss rowSum
  rw [hc, unitRow_congr x0 f r R h0]
  refine congrArg (fun s => meanOf s (cnt l R)) ?_
  rw [LibCounts.sum_pad (fun k => Scalar.select (posBit (x2 (ix2 r k))) (lossOf (simOf (unitRow f R) (fun d => x1 (ix2 k d)))) 0)
    (fun k hk => by rw [h2out k hk, posBit_zero]; exact select_zero _ _)]
  refine Finset.sum_congr rfl fun k _ => ?_
  rw [h2in]
  unfold sim
  simp only [h1]

/-- Point `t`'s rows against the argument arrays. -/
theorem row_eq (c : Dev nD) (t : Fin cfg0.N) (r : Fin 512) :
    rowCount (iblk m c 2 t) r = cnt (lA m c) (grow t r)
      ∧ rowMean (iblk m c 0 t) (iblk m c 1 t) (iblk m c 2 t) r = rowLoss (fA m c) (pA m c) (lA m c) (grow t r) :=
  row_congr (iblk m c 0 t) (iblk m c 1 t) (iblk m c 2 t) r (fA m c) (pA m c) (lA m c) (grow t r)
    (fun d => iblk0_apply m c t r d)
    (fun k d => (iblk1_apply m c t (Fin.castLE (by decide) k) d).trans (Host.protos_apply m c k d))
    (fun k => (iblk2_apply m c t r (Fin.castLE (by decide) k)).trans (Host.labels_apply_in m c (grow t r) k))
    (fun k hk => (iblk2_apply m c t r k).trans (Host.labels_apply_out m c (grow t r) k hk))

theorem partSum_eq (c : Dev nD) (t : Fin cfg0.N) :
    partSum m c t = ∑ r : Fin 512, if 0 < cnt (lA m c) (grow t r) then rowLoss (fA m c) (pA m c) (lA m c) (grow t r) else 0 := by
  unfold partSum
  refine Finset.sum_congr rfl fun r _ => ?_
  rw [(row_eq m c t r).1, (row_eq m c t r).2]

theorem partCount_eq (c : Dev nD) (t : Fin cfg0.N) :
    partCount m c t = ∑ r : Fin 512, if 0 < cnt (lA m c) (grow t r) then 1 else 0 := by
  unfold partCount
  refine Finset.sum_congr rfl fun r _ => ?_
  rw [(row_eq m c t r).1]

/-! ## The eight partial results added up -/

/-- An index of a result array is its first coordinate: the other two axes have one position. -/
def idxEquiv : S8x1x1.Idx ≃ Fin cfg0.N where
  toFun := pointOf
  invFun t := ix3 (⟨t.val, by have := t.isLt; have h8 : cfg0.N = 8 := hN; omega⟩ : Fin 8) (0 : Fin 1) (0 : Fin 1)
  left_inv i := by
    funext d
    apply Fin.ext
    have h1 : (i 1).val < 1 := (i 1).isLt
    have h2 : (i 2).val < 1 := (i 2).isLt
    match d with
    | ⟨0, _⟩ => rfl
    | ⟨1, _⟩ => show 0 = (i 1).val; omega
    | ⟨2, _⟩ => show 0 = (i 2).val; omega
  right_inv t := Fin.ext rfl

theorem sum_points {M : Type*} [AddCommMonoid M] (g : Fin cfg0.N → M) : ∑ i : S8x1x1.Idx, g (pointOf i) = ∑ t : Fin cfg0.N, g t :=
  Equiv.sum_comp idxEquiv g

/-- A sum over the 4096 rows, taken point by point. -/
theorem sum_rows {M : Type*} [AddCommMonoid M] (g : Fin 4096 → M) : ∑ t : Fin cfg0.N, ∑ r : Fin 512, g (grow t r) = ∑ R : Fin 4096, g R :=
  (Cert.Lib.SumBlocks.sum_blocks cfg0.N 512 4096 (by rw [hN]) g grow (fun _ _ => rfl)).symm

theorem sum_sums (c : Dev nD) : ∑ i : S8x1x1.Idx, sums m c i = total (fA m c) (pA m c) (lA m c) := by
  unfold sums total
  rw [sum_points (fun t => partSum m c t)]
  simp only [partSum_eq]
  exact sum_rows (fun R => if 0 < cnt (lA m c) R then rowLoss (fA m c) (pA m c) (lA m c) R else 0)

theorem sum_counts (c : Dev nD) : ∑ i : S8x1x1.Idx, counts m c i = (((nvalid (lA m c) : ℕ) : ℝ) : EReal) := by
  unfold counts nvalid
  rw [LibCounts.coe_sum_natCast, sum_points (fun t => partCount m c t)]
  simp only [partCount_eq]
  rw [sum_rows (fun R => if 0 < cnt (lA m c) R then 1 else 0)]

/-! ## The result -/

/-- What the lines after the region leave in the result buffer is the specification's loss of the arguments. -/
theorem result_eq (c : Dev nD) :
    Pipeline.afterTail₀ cfgs (dats m) 0 (V0 m) [hostOps1, hostOps1_1] c main_v17
      = fun _ => out (fA m c) (pA m c) (lA m c) := by
  rw [Host.tail_eq m (dats m) c, final3, final4, sum_counts, sum_sums]
  funext _
  rw [LibCounts.cmp_ogt_count, LibCounts.select_ofBool, LibCounts.max_count_one]
  rfl

/-- The idealized kernel runs, ends with the specification's loss in its result buffer, and leaves its arguments as
    launched. -/
theorem run : θ_run defs (onTc (τ := τ) (main (F := Ideal))) ⟨m, fun _ => 0, ρ⟩ fun r => ∀ c : Dev nD,
      r.2.mem ((c.tc : Thread nD τ).loc main_v17) = (fun _ => out (fA m c) (pA m c) (lA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.SupCon.Value

end
-- ==== Proof.RefValue.lean ====
/-
  The reference program's result is the specification.

  The reference's operations are composed here into a dozen stages, each one array-valued function of the three argument
  arrays, spelt exactly as the program applies them. Each stage is then read at an index over the extended reals and
  identified with the corresponding part of the specification: unit rows, similarities, entry losses, positive-label
  bits and their per-row counts, masked row sums, row means, the count of rows that have a positive label, the sum of
  their means, and the final mean.
-/
import proofs.«121065_j19361712571095_2_alg».proof.ReferenceIdeal
import proofs.«121065_j19361712571095_2_alg».proof.Proof.Spec
import proofs.«121065_j19361712571095_2_alg».proof.Proof.LibCounts
import Idealize.ShloMosaic.Lib.ValueIdx
import Idealize.ShloMosaic.Lib.Pipeline.Value
import Idealize.ShloMosaic.PureOps.Ideal.Laws
import Idealize.ShloMosaic.PureOps.Reduce
import Idealize.ShloMosaic.Lib.IdealHost

noncomputable section

namespace Cert.SupCon.Ref

open Idealize.ShloMosaic Idealize.SL.Sem Idealize.ShloMosaic.ValueIdx
open Cert.ReferenceIdeal Cert.ReferenceIdeal.Facts₀ Cert.ReferenceIdeal.Facts

variable [Cert.ReferenceIdeal.Facts]

/-! ## The stages -/

section Stages
variable {F : FTy → Type} [FloatOps F]

/-- The feature rows, each divided by its length floored at ε. -/
def fnV (x0 : (⟨S4096x2048, .f32⟩ : BufTy).Contents (Elt F)) : (⟨S4096x2048, .f32⟩ : BufTy).Contents (Elt F) :=
  Host.divf x0 (broadcastInDim S4096x2048 ![0, 1] bcast_S4096x1_S4096x2048_0_1 (maximumf (Host.sqrt (broadcastInDim S4096x1 ![0] bcast_S4096_S4096x1_0 (Host.reduceAdd (mulf x0 x0) (constant S_ .f32 0x00000000#32) reducesTo_S4096x2048_S4096_d1 h_S_))) (broadcastInDim S4096x1 ![] bcast_S_S4096x1 (constant S_ .f32 0x2B8CBCCC#32))))

/-- The prototype rows, each divided by its length floored at ε. -/
def pnV (x1 : (⟨S1000x2048, .f32⟩ : BufTy).Contents (Elt F)) : (⟨S1000x2048, .f32⟩ : BufTy).Contents (Elt F) :=
  Host.divf x1 (broadcastInDim S1000x2048 ![0, 1] bcast_S1000x1_S1000x2048_0_1 (maximumf (Host.sqrt (broadcastInDim S1000x1 ![0] bcast_S1000_S1000x1_0 (Host.reduceAdd (mulf x1 x1) (constant S_ .f32 0x00000000#32) reducesTo_S1000x2048_S1000_d1 h_S_))) (broadcastInDim S1000x1 ![] bcast_S_S1000x1 (constant S_ .f32 0x2B8CBCCC#32))))

/-- Minus the similarities: the inner products of unit rows over the temperature, negated. -/
def negSimV (x0 : (⟨S4096x2048, .f32⟩ : BufTy).Contents (Elt F)) (x1 : (⟨S1000x2048, .f32⟩ : BufTy).Contents (Elt F)) : (⟨S4096x1000, .f32⟩ : BufTy).Contents (Elt F) :=
  Host.negf (Host.divf (Host.dotGeneral dot_S4096x2048_S1000x2048_S4096x1000_1_1_0_0_n_n none (fnV x0) (pnV x1)) (broadcastInDim S4096x1000 ![] bcast_S_S4096x1000 (constant S_ .f32 0x3DCCCCCD#32)))

/-- logaddexp(y, 0) of an array, as the program spells it. -/
def softplusV (y : (⟨S4096x1000, .f32⟩ : BufTy).Contents (Elt F)) : (⟨S4096x1000, .f32⟩ : BufTy).Contents (Elt F) :=
  select (cmpf .une (subf y (broadcastInDim S4096x1000 ![] bcast_S_S4096x1000 (constant S_ .f32 0x00000000#32))) (subf y (broadcastInDim S4096x1000 ![] bcast_S_S4096x1000 (constant S_ .f32 0x00000000#32)))) (addf y (broadcastInDim S4096x1000 ![] bcast_S_S4096x1000 (constant S_ .f32 0x00000000#32))) (addf (maximumf y (broadcastInDim S4096x1000 ![] bcast_S_S4096x1000 (constant S_ .f32 0x00000000#32))) (Host.log1p (Host.exp (Host.negf (Host.absf (subf y (broadcastInDim S4096x1000 ![] bcast_S_S4096x1000 (constant S_ .f32 0x00000000#32))))))))

/-- The entry losses. -/
def lossV (x0 : (⟨S4096x2048, .f32⟩ : BufTy).Contents (Elt F)) (x1 : (⟨S1000x2048, .f32⟩ : BufTy).Contents (Elt F)) : (⟨S4096x1000, .f32⟩ : BufTy).Contents (Elt F) :=
  softplusV (negSimV x0 x1)

/-- Which labels are positive. -/
def bitV (x2 : (⟨S4096x1000, .i32⟩ : BufTy).Contents (Elt F)) : (⟨S4096x1000, .i1⟩ : BufTy).Contents (Elt F) :=
  cmpi .sgt x2 (broadcastInDim S4096x1000 ![] bcast_S_S4096x1000 (constantI S_ 32 0#32))

/-- Each row's count of positive labels, a 32-bit sum. -/
def cntV (x2 : (⟨S4096x1000, .i32⟩ : BufTy).Contents (Elt F)) : (⟨S4096, .i32⟩ : BufTy).Contents (Elt F) :=
  Host.reduce IntOp.addi (extui 32 (bitV (F := F) x2) natLt_1_32) (constantI S_ 32 0#32) reducesTo_S4096x1000_S4096_d1 h_S_

/-- Each row's sum of entry losses over its positive labels. -/
def rowSumV (x0 : (⟨S4096x2048, .f32⟩ : BufTy).Contents (Elt F)) (x1 : (⟨S1000x2048, .f32⟩ : BufTy).Contents (Elt F)) (x2 : (⟨S4096x1000, .i32⟩ : BufTy).Contents (Elt F)) : (⟨S4096, .f32⟩ : BufTy).Contents (Elt F) :=
  Host.reduceAdd (select (bitV (F := F) x2) (lossV x0 x1) (broadcastInDim S4096x1000 ![] bcast_S_S4096x1000 (id (constant S_ .f32 0x00000000#32)))) (constant S_ .f32 0x00000000#32) reducesTo_S4096x1000_S4096_d1 h_S_

/-- Each row's mean loss. -/
def rowLossV (x0 : (⟨S4096x2048, .f32⟩ : BufTy).Contents (Elt F)) (x1 : (⟨S1000x2048, .f32⟩ : BufTy).Contents (Elt F)) (x2 : (⟨S4096x1000, .i32⟩ : BufTy).Contents (Elt F)) : (⟨S4096, .f32⟩ : BufTy).Contents (Elt F) :=
  Host.divf (rowSumV x0 x1 x2) (sitofp .f32 (maxsi (cntV (F := F) x2) (broadcastInDim S4096 ![] bcast_S_S4096 (constantI S_ 32 1#32))))

/-- Which rows have a positive label. -/
def validV (x2 : (⟨S4096x1000, .i32⟩ : BufTy).Contents (Elt F)) : (⟨S4096, .i1⟩ : BufTy).Contents (Elt F) :=
  cmpi .sgt (cntV (F := F) x2) (broadcastInDim S4096 ![] bcast_S_S4096 (constantI S_ 32 0#32))

/-- How many rows have a positive label, a 32-bit sum. -/
def nvalidV (x2 : (⟨S4096x1000, .i32⟩ : BufTy).Contents (Elt F)) : (⟨S_, .i32⟩ : BufTy).Contents (Elt F) :=
  Host.reduce IntOp.addi (extui 32 (validV (F := F) x2) natLt_1_32) (constantI S_ 32 0#32) reducesTo_S4096_S_d0 h_S_

/-- The sum of the mean losses of the rows that have a positive label. -/
def totalV (x0 : (⟨S4096x2048, .f32⟩ : BufTy).Contents (Elt F)) (x1 : (⟨S1000x2048, .f32⟩ : BufTy).Contents (Elt F)) (x2 : (⟨S4096x1000, .i32⟩ : BufTy).Contents (Elt F)) : (⟨S_, .f32⟩ : BufTy).Contents (Elt F) :=
  Host.reduceAdd (select (validV (F := F) x2) (rowLossV x0 x1 x2) (broadcastInDim S4096 ![] bcast_S_S4096 (id (constant S_ .f32 0x00000000#32)))) (constant S_ .f32 0x00000000#32) reducesTo_S4096_S_d0 h_S_

/-- The program's result: the mean over the rows that have a positive label, zero when there is none. -/
def resultV (x0 : (⟨S4096x2048, .f32⟩ : BufTy).Contents (Elt F)) (x1 : (⟨S1000x2048, .f32⟩ : BufTy).Contents (Elt F)) (x2 : (⟨S4096x1000, .i32⟩ : BufTy).Contents (Elt F)) : (⟨S_, .f32⟩ : BufTy).Contents (Elt F) :=
  select (cmpi .sgt (nvalidV (F := F) x2) (constantI S_ 32 0#32)) (Host.divf (totalV x0 x1 x2) (sitofp .f32 (maxsi (nvalidV (F := F) x2) (constantI S_ 32 1#32)))) (id (constant S_ .f32 0x00000000#32))

end Stages

/-! ## The stages read at an index, over the extended reals -/

section Reads

/-- The reference's one-operand float operations at an index, over the extended reals. -/
theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl
theorem hostLog1p_apply {s : Shape} {φ : FTy} (a : FVec Ideal s φ) (i : s.Idx) : Host.log1p a i = Ideal.log1p (a i) := rfl
theorem hostNegf_apply {s : Shape} {φ : FTy} (a : FVec Ideal s φ) (i : s.Idx) : Host.negf a i = -(a i) := rfl
theorem hostAbsf_apply {s : Shape} {φ : FTy} (a : FVec Ideal s φ) (i : s.Idx) : Host.absf a i = max (a i) (-(a i)) := rfl

/-- The sum of the squares of feature row `r`. -/
theorem rowSq0_apply (x0 : (⟨S4096x2048, .f32⟩ : BufTy).Contents (Elt Ideal)) (r : Fin 4096) :
    Host.reduceAdd (mulf x0 x0) (constant (F := Ideal) S_ .f32 0x00000000#32) reducesTo_S4096x2048_S4096_d1 h_S_ (ix1 r)
      = ∑ d : Fin 2048, x0 (ix2 r d) * x0 (ix2 r d) := by
  rw [hostReduceAdd_apply, Ideal.hostReduceAdd_single reducesTo_S4096x2048_S4096_d1 (by decide), constant_apply,
    Ideal.ofBits_zero_f32, zero_add]
  refine Finset.sum_congr rfl fun k _ => ?_
  rw [mulf_apply]
  exact congrArg (fun i => x0 i * x0 i) (funext fun a => Fin.ext (by match a with | ⟨0, _⟩ => rfl | ⟨1, _⟩ => rfl))

/-- A normalized feature row is the specification's unit row. -/
theorem fnV_apply (x0 : (⟨S4096x2048, .f32⟩ : BufTy).Contents (Elt Ideal)) (r : Fin 4096) (d : Fin 2048) :
    fnV (F := Ideal) x0 (ix2 r d) = unitRow x0 r d := by
  unfold fnV unitRow rowNorm eps
  rw [hostDivf_apply,
    broadcastInDim_apply ![0, 1] bcast_S4096x1_S4096x2048_0_1 _ (ix2 r d) (ix2 r (0 : Fin 1)) (fun a => match a with
      | ⟨0, _⟩ => by show r.val = if (4096 : Nat) = 1 then 0 else r.val; rw [if_neg (by decide)]
      | ⟨1, _⟩ => by show 0 = if (1 : Nat) = 1 then 0 else d.val; rw [if_pos rfl]),
    maximumf_apply, broadcastInDim_scalar_apply, constant_apply, hostSqrt_apply,
    broadcastInDim_apply ![0] bcast_S4096_S4096x1_0 _ (ix2 r (0 : Fin 1)) (ix1 r) (fun a => match a with
      | ⟨0, _⟩ => by show r.val = if (4096 : Nat) = 1 then 0 else r.val; rw [if_neg (by decide)]),
    rowSq0_apply]

/-- The sum of the squares of prototype row `c`. -/
theorem rowSq1_apply (x1 : (⟨S1000x2048, .f32⟩ : BufTy).Contents (Elt Ideal)) (c : Fin 1000) :
    Host.reduceAdd (mulf x1 x1) (constant (F := Ideal) S_ .f32 0x00000000#32) reducesTo_S1000x2048_S1000_d1 h_S_ (ix1 c)
      = ∑ d : Fin 2048, x1 (ix2 c d) * x1 (ix2 c d) := by
  rw [hostReduceAdd_apply, Ideal.hostReduceAdd_single reducesTo_S1000x2048_S1000_d1 (by decide), constant_apply,
    Ideal.ofBits_zero_f32, zero_add]
  refine Finset.sum_congr rfl fun k _ => ?_
  rw [mulf_apply]
  exact congrArg (fun i => x1 i * x1 i) (funext fun a => Fin.ext (by match a with | ⟨0, _⟩ => rfl | ⟨1, _⟩ => rfl))

/-- A normalized prototype row is the specification's unit row. -/
theorem pnV_apply (x1 : (⟨S1000x2048, .f32⟩ : BufTy).Contents (Elt Ideal)) (c : Fin 1000) (d : Fin 2048) :
    pnV (F := Ideal) x1 (ix2 c d) = unitRow x1 c d := by
  unfold pnV unitRow rowNorm eps
  rw [hostDivf_apply,
    broadcastInDim_apply ![0, 1] bcast_S1000x1_S1000x2048_0_1 _ (ix2 c d) (ix2 c (0 : Fin 1)) (fun a => match a with
      | ⟨0, _⟩ => by show c.val = if (1000 : Nat) = 1 then 0 else c.val; rw [if_neg (by decide)]
      | ⟨1, _⟩ => by show 0 = if (1 : Nat) = 1 then 0 else d.val; rw [if_pos rfl]),
    maximumf_apply, broadcastInDim_scalar_apply, constant_apply, hostSqrt_apply,
    broadcastInDim_apply ![0] bcast_S1000_S1000x1_0 _ (ix2 c (0 : Fin 1)) (ix1 c) (fun a => match a with
      | ⟨0, _⟩ => by show c.val = if (1000 : Nat) = 1 then 0 else c.val; rw [if_neg (by decide)]),
    rowSq1_apply]

/-- The operand indices of the contraction: row `r` of the left operand, row `c` of the right (the contracted
    coordinate goes on the second axis of both). -/
theorem dot_lhs0 (i : S4096x1000.Idx) (q : dot_S4096x2048_S1000x2048_S4096x1000_1_1_0_0_n_n.contr.Idx) : (dot_S4096x2048_S1000x2048_S4096x1000_1_1_0_0_n_n.lhsIdx i q 0).val = (i 0).val := by
  unfold DotDims.lhsIdx
  rw [dif_neg (by show ¬(0 : Fin 2) ∈ ([] : List (Fin 2)); decide),
    dif_pos (by show (0 : Fin 2) ∈ [(0 : Fin 2)]; decide)]
  rfl
theorem dot_rhs0 (i : S4096x1000.Idx) (q : dot_S4096x2048_S1000x2048_S4096x1000_1_1_0_0_n_n.contr.Idx) : (dot_S4096x2048_S1000x2048_S4096x1000_1_1_0_0_n_n.rhsIdx i q 0).val = (i 1).val := by
  unfold DotDims.rhsIdx
  rw [dif_neg (by show ¬(0 : Fin 2) ∈ ([] : List (Fin 2)); decide),
    dif_pos (by show (0 : Fin 2) ∈ [(0 : Fin 2)]; decide)]
  rfl

/-- The contraction at (r, c) is the inner product of row `r` of the left operand and row `c` of the right. -/
theorem dot_apply (a : (⟨S4096x2048, .f32⟩ : BufTy).Contents (Elt Ideal)) (b : (⟨S1000x2048, .f32⟩ : BufTy).Contents (Elt Ideal))
    (r : Fin 4096) (c : Fin 1000) :
    Host.dotGeneral (F := Ideal) (φ₁ := .f32) (φ₂ := .f32) dot_S4096x2048_S1000x2048_S4096x1000_1_1_0_0_n_n none a b (ix2 r c) = ∑ k : Fin 2048, a (ix2 r k) * b (ix2 c k) := by
  simp only [Host.dotGeneral]
  rw [Ideal.dotGeneral_apply, ← Equiv.sum_comp (contrEquiv1 dot_S4096x2048_S1000x2048_S4096x1000_1_1_0_0_n_n 2048 rfl rfl).symm]
  refine Finset.sum_congr rfl fun k _ => ?_
  have hk := contrEquiv1_symm_val dot_S4096x2048_S1000x2048_S4096x1000_1_1_0_0_n_n 2048 rfl rfl k
  have el : dot_S4096x2048_S1000x2048_S4096x1000_1_1_0_0_n_n.lhsIdx (ix2 r c) ((contrEquiv1 dot_S4096x2048_S1000x2048_S4096x1000_1_1_0_0_n_n 2048 rfl rfl).symm k) = ix2 r k := funext fun a => Fin.ext (by
    match a with
    | ⟨0, _⟩ => exact dot_lhs0 _ _
    | ⟨1, _⟩ => exact (DotDims.lhsIdx_val_of_single dot_S4096x2048_S1000x2048_S4096x1000_1_1_0_0_n_n rfl _ _).trans hk)
  have er : dot_S4096x2048_S1000x2048_S4096x1000_1_1_0_0_n_n.rhsIdx (ix2 r c) ((contrEquiv1 dot_S4096x2048_S1000x2048_S4096x1000_1_1_0_0_n_n 2048 rfl rfl).symm k) = ix2 c k := funext fun a => Fin.ext (by
    match a with
    | ⟨0, _⟩ => exact dot_rhs0 _ _
    | ⟨1, _⟩ => exact (DotDims.rhsIdx_val_of_single dot_S4096x2048_S1000x2048_S4096x1000_1_1_0_0_n_n rfl _ _).trans hk)
  rw [el, er]

/-- Minus the similarity of feature row `r` and prototype row `c`. -/
theorem negSimV_apply (x0 : (⟨S4096x2048, .f32⟩ : BufTy).Contents (Elt Ideal)) (x1 : (⟨S1000x2048, .f32⟩ : BufTy).Contents (Elt Ideal))
    (r : Fin 4096) (c : Fin 1000) : negSimV (F := Ideal) x0 x1 (ix2 r c) = -(sim x0 x1 r c) := by
  unfold negSimV sim simOf temp
  rw [hostNegf_apply, hostDivf_apply, broadcastInDim_scalar_apply, constant_apply, dot_apply]
  simp only [fnV_apply, pnV_apply]

/-- logaddexp(y, 0) at an index is the specification's softplus: the program selects on "y - 0 differs from itself",
    which no extended real does, and y - 0 is y. -/
theorem softplusV_apply (y : (⟨S4096x1000, .f32⟩ : BufTy).Contents (Elt Ideal)) (i : S4096x1000.Idx) :
    softplusV (F := Ideal) y i = softplus (y i) := by
  have hz : broadcastInDim S4096x1000 ![] bcast_S_S4096x1000 (constant (F := Ideal) S_ .f32 0x00000000#32) i = 0 := by
    rw [broadcastInDim_scalar_apply, constant_apply, Ideal.ofBits_zero_f32]
  unfold softplusV softplus
  simp only [select_apply, cmpf_apply, subf_apply, addf_apply, maximumf_apply, hostLog1p_apply, hostExp_apply,
    hostNegf_apply, hostAbsf_apply, hz, LibCounts.ereal_sub_zero, Ideal.cmpf_def, LibCounts.cmp_une_self, select_zero]

/-- An entry's loss. -/
theorem lossV_apply (x0 : (⟨S4096x2048, .f32⟩ : BufTy).Contents (Elt Ideal)) (x1 : (⟨S1000x2048, .f32⟩ : BufTy).Contents (Elt Ideal))
    (r : Fin 4096) (c : Fin 1000) : lossV (F := Ideal) x0 x1 (ix2 r c) = lossOf (sim x0 x1 r c) := by
  unfold lossV lossOf
  rw [softplusV_apply, negSimV_apply]

/-- The integer operations at an index. -/
theorem cmpi_apply {s : Shape} {w : Nat} (p : CmpIPredicate) (a b : IVec s w) (i : s.Idx) :
    cmpi p a b i = IntOp.cmpi p (a i) (b i) := rfl
theorem maxsi_apply {s : Shape} {w : Nat} (a b : IVec s w) (i : s.Idx) : maxsi a b i = IntOp.maxsi (a i) (b i) := rfl
theorem constantI_apply (s : Shape) (w : Nat) (b : BitVec w) (i : s.Idx) : constantI s w b i = b := rfl

/-- The index over (r) with coordinate `c` inserted on the second axis is (r, c). -/
theorem lift_row (h : S4096x1000.Reduces [1] S4096) (r : Fin 4096) (c : Fin 1000) : h.lift (ix1 r) c = ix2 r c :=
  funext fun a => Fin.ext (by match a with | ⟨0, _⟩ => rfl | ⟨1, _⟩ => rfl)

/-- A label's bit. -/
theorem bitV_apply (x2 : (⟨S4096x1000, .i32⟩ : BufTy).Contents (Elt Ideal)) (i : S4096x1000.Idx) :
    bitV (F := Ideal) x2 i = posBit (x2 i) := by
  unfold bitV posBit
  rw [cmpi_apply, broadcastInDim_scalar_apply, constantI_apply]

/-- A row has at most 1000 positive labels, and at most 4096 rows have one: both counts are far below 2^31. -/
theorem cnt_lt (l : (⟨2, ![4096, 1000]⟩ : Shape).Idx → BitVec 32) (r : Fin 4096) : cnt l r < 2 ^ 31 :=
  lt_of_le_of_lt (LibCounts.sum_bits_le 1000 fun c => posBit (l (ix2 r c))) (by norm_num)

theorem nvalid_lt (l : (⟨2, ![4096, 1000]⟩ : Shape).Idx → BitVec 32) : nvalid l < 2 ^ 31 := by
  have h : nvalid l ≤ (Finset.univ : Finset (Fin 4096)).card • 1 :=
    Finset.sum_le_card_nsmul _ _ 1 (fun r _ => by split_ifs <;> omega)
  rw [Finset.card_univ, Fintype.card_fin, smul_eq_mul, mul_one] at h
  omega

/-- A row's 32-bit count is the word of its count of positive labels. -/
theorem cntV_apply (x2 : (⟨S4096x1000, .i32⟩ : BufTy).Contents (Elt Ideal)) (r : Fin 4096) :
    cntV (F := Ideal) x2 (ix1 r) = BitVec.ofNat 32 (cnt x2 r) := by
  unfold cntV cnt
  rw [Host.reduce_eq_fold_single IntOp.addi _ _ reducesTo_S4096x1000_S4096_d1 (by decide) h_S_ (ix1 r)]
  refine (LibCounts.fold_addi 1000 _).trans (congrArg (BitVec.ofNat 32) (Finset.sum_congr rfl fun c _ => ?_))
  exact (LibCounts.toNat_setWidth_bit _).trans (congrArg BitVec.toNat
    ((congrArg (bitV (F := Ideal) x2) (lift_row _ r c)).trans (bitV_apply x2 _)))

/-- A row's masked sum. -/
theorem rowSumV_apply (x0 : (⟨S4096x2048, .f32⟩ : BufTy).Contents (Elt Ideal)) (x1 : (⟨S1000x2048, .f32⟩ : BufTy).Contents (Elt Ideal))
    (x2 : (⟨S4096x1000, .i32⟩ : BufTy).Contents (Elt Ideal)) (r : Fin 4096) :
    rowSumV (F := Ideal) x0 x1 x2 (ix1 r) = rowSum x0 x1 x2 r := by
  unfold rowSumV rowSum
  rw [hostReduceAdd_apply, Ideal.hostReduceAdd_single reducesTo_S4096x1000_S4096_d1 (by decide), constant_apply,
    Ideal.ofBits_zero_f32, zero_add]
  show ∑ c : Fin 1000, _ = _
  refine Finset.sum_congr rfl fun c _ => ?_
  rw [lift_row, select_apply, bitV_apply, lossV_apply, broadcastInDim_scalar_apply]
  show Scalar.select _ _ (Ideal.ofBits .f32 0x00000000#32) = _
  rw [Ideal.ofBits_zero_f32]

/-- A row's mean loss. -/
theorem rowLossV_apply (x0 : (⟨S4096x2048, .f32⟩ : BufTy).Contents (Elt Ideal)) (x1 : (⟨S1000x2048, .f32⟩ : BufTy).Contents (Elt Ideal))
    (x2 : (⟨S4096x1000, .i32⟩ : BufTy).Contents (Elt Ideal)) (r : Fin 4096) :
    rowLossV (F := Ideal) x0 x1 x2 (ix1 r) = rowLoss x0 x1 x2 r := by
  unfold rowLossV rowLoss meanOf
  rw [hostDivf_apply, sitofp_apply, maxsi_apply, cntV_apply, broadcastInDim_scalar_apply, constantI_apply, rowSumV_apply,
    LibCounts.sitofp_maxsi_count _ (cnt_lt x2 r)]

/-- Whether a row has a positive label. -/
theorem validV_apply (x2 : (⟨S4096x1000, .i32⟩ : BufTy).Contents (Elt Ideal)) (r : Fin 4096) :
    validV (F := Ideal) x2 (ix1 r) = BitVec.ofBool (decide (0 < cnt x2 r)) := by
  unfold validV
  rw [cmpi_apply, cntV_apply, broadcastInDim_scalar_apply, constantI_apply, LibCounts.cmpi_sgt_count _ (cnt_lt x2 r)]

/-- The rank-1 indices of extent 4096 are the coordinates below 4096. -/
def idx1Equiv : S4096.Idx ≃ Fin 4096 where
  toFun i := i 0
  invFun r := ix1 r
  left_inv i := (eq_ix1 i).symm
  right_inv _ := rfl

/-- The 32-bit count of rows that have a positive label is the word of their number: every index drops to the one
    index of the rank-0 result, so the fold runs over all rows. -/
theorem nvalidV_apply (x2 : (⟨S4096x1000, .i32⟩ : BufTy).Contents (Elt Ideal)) :
    nvalidV (F := Ideal) x2 ix0 = BitVec.ofNat 32 (nvalid x2) := by
  unfold nvalidV nvalid
  rw [Host.reduce_eq_fold IntOp.addi _ _ reducesTo_S4096_S_d0 h_S_ ix0,
    Finset.filter_true_of_mem (fun i _ => funext fun b => b.elim0), ← Finset.map_univ_equiv idx1Equiv.symm,
    Finset.fold_map]
  refine (LibCounts.fold_addi 4096 _).trans (congrArg (BitVec.ofNat 32) (Finset.sum_congr rfl fun r _ => ?_))
  show ((validV (F := Ideal) x2 (ix1 r)).setWidth 32).toNat = _
  rw [validV_apply, LibCounts.setWidth_ofBool_toNat]

/-- The sum of the mean losses of the rows that have a positive label. -/
theorem totalV_apply (x0 : (⟨S4096x2048, .f32⟩ : BufTy).Contents (Elt Ideal)) (x1 : (⟨S1000x2048, .f32⟩ : BufTy).Contents (Elt Ideal))
    (x2 : (⟨S4096x1000, .i32⟩ : BufTy).Contents (Elt Ideal)) :
    totalV (F := Ideal) x0 x1 x2 ix0 = total x0 x1 x2 := by
  unfold totalV total
  rw [hostReduceAdd_apply, Ideal.hostReduceAdd_total reducesTo_S4096_S_d0 (fun b => b.elim0), constant_apply,
    Ideal.ofBits_zero_f32, zero_add, ← Equiv.sum_comp idx1Equiv.symm]
  refine Finset.sum_congr rfl fun r _ => ?_
  show select _ _ _ (ix1 r) = _
  rw [select_apply, validV_apply, rowLossV_apply, broadcastInDim_scalar_apply, LibCounts.select_ofBool]
  show (if 0 < cnt x2 r then _ else Ideal.ofBits .f32 0x00000000#32) = _
  rw [Ideal.ofBits_zero_f32]

end Reads

/-! ## The result -/

/-- The reference program's result is the specification's loss. -/
theorem result_eq (x0 : (⟨S4096x2048, .f32⟩ : BufTy).Contents (Elt Ideal)) (x1 : (⟨S1000x2048, .f32⟩ : BufTy).Contents (Elt Ideal))
    (x2 : (⟨S4096x1000, .i32⟩ : BufTy).Contents (Elt Ideal)) :
    resultV (F := Ideal) x0 x1 x2 = fun _ => Cert.SupCon.out x0 x1 x2 := by
  funext i
  obtain rfl := eq_ix0 i
  unfold resultV out meanOf
  rw [select_apply, cmpi_apply, hostDivf_apply, sitofp_apply, maxsi_apply, nvalidV_apply, totalV_apply, constantI_apply,
    constantI_apply, LibCounts.cmpi_sgt_count _ (nvalid_lt x2), LibCounts.sitofp_maxsi_count _ (nvalid_lt x2),
    LibCounts.select_ofBool]
  show (if 0 < nvalid x2 then _ else Ideal.ofBits .f32 0x00000000#32) = _
  rw [Ideal.ofBits_zero_f32]

end Cert.SupCon.Ref

end
-- ==== Proof.RefRun.lean ====
/-
  The reference program's run. Its @main is a straight line of 77 host operations (the operations of the functions it
  calls — softplus and three selects — standing at their call sites), so every weakly fair execution terminates with each
  buffer at the operations' composed value of the launch contents. The result buffer's composed value is, operation for
  operation, the staged function `Ref.resultV` of the three argument arrays; no operation writes an argument.
-/
import proofs.«121065_j19361712571095_2_alg».proof.Proof.Gen.ReferenceIdeal
import proofs.«121065_j19361712571095_2_alg».proof.Proof.RefValue
import Idealize.ShloMosaic.Lib.StableHlo.Run

noncomputable section

namespace Cert.SupCon.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 77 operations, in order; an operation of a called function is written at the buffers of its call. -/
abbrev ops : List (HloOp τ sig (Elt F)) :=
  [ binary main_arg0 main_arg0 main_v0 (mulf : (⟨S4096x2048, .f32⟩ : BufTy).Contents (Elt F) → (⟨S4096x2048, .f32⟩ : BufTy).Contents (Elt F) → (⟨S4096x2048, .f32⟩ : BufTy).Contents (Elt F)),
    nullary main_cst (constant S_ .f32 0x00000000#32),
    binary main_v0 main_cst main_v1 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x2048 ![0, 1] bcast_S4096x1_S4096x2048_0_1 : (⟨S4096x1, .f32⟩ : BufTy).Contents (Elt F) → (⟨S4096x2048, .f32⟩ : BufTy).Contents (Elt F)),
    binary main_arg0 main_v6 main_v7 (Host.divf : (⟨S4096x2048, .f32⟩ : BufTy).Contents (Elt F) → (⟨S4096x2048, .f32⟩ : BufTy).Contents (Elt F) → (⟨S4096x2048, .f32⟩ : BufTy).Contents (Elt F)),
    binary main_arg1 main_arg1 main_v8 (mulf : (⟨S1000x2048, .f32⟩ : BufTy).Contents (Elt F) → (⟨S1000x2048, .f32⟩ : BufTy).Contents (Elt F) → (⟨S1000x2048, .f32⟩ : BufTy).Contents (Elt F)),
    nullary main_cst_1 (constant S_ .f32 0x00000000#32),
    binary main_v8 main_cst_1 main_v9 ((fun x v => Host.reduceAdd x v reducesTo_S1000x2048_S1000_d1 h_S_) : (⟨S1000x2048, .f32⟩ : BufTy).Contents (Elt F) → (⟨S_, .f32⟩ : BufTy).Contents (Elt F) → (⟨S1000, .f32⟩ : BufTy).Contents (Elt F)),
    unary main_v9 main_v10 (broadcastInDim S1000x1 ![0] bcast_S1000_S1000x1_0 : (⟨S1000, .f32⟩ : BufTy).Contents (Elt F) → (⟨S1000x1, .f32⟩ : BufTy).Contents (Elt F)),
    unary main_v10 main_v11 (Host.sqrt : (⟨S1000x1, .f32⟩ : BufTy).Contents (Elt F) → (⟨S1000x1, .f32⟩ : BufTy).Contents (Elt F)),
    nullary main_cst_2 (constant S_ .f32 0x2B8CBCCC#32),
    unary main_cst_2 main_v12 (broadcastInDim S1000x1 ![] bcast_S_S1000x1 : (⟨S_, .f32⟩ : BufTy).Contents (Elt F) → (⟨S1000x1, .f32⟩ : BufTy).Contents (Elt F)),
    binary main_v11 main_v12 main_v13 (maximumf : (⟨S1000x1, .f32⟩ : BufTy).Contents (Elt F) → (⟨S1000x1, .f32⟩ : BufTy).Contents (Elt F) → (⟨S1000x1, .f32⟩ : BufTy).Contents (Elt F)),
    unary main_v13 main_v14 (broadcastInDim S1000x2048 ![0, 1] bcast_S1000x1_S1000x2048_0_1 : (⟨S1000x1, .f32⟩ : BufTy).Contents (Elt F) → (⟨S1000x2048, .f32⟩ : BufTy).Contents (Elt F)),
    binary main_arg1 main_v14 main_v15 (Host.divf : (⟨S1000x2048, .f32⟩ : BufTy).Contents (Elt F) → (⟨S1000x2048, .f32⟩ : BufTy).Contents (Elt F) → (⟨S1000x2048, .f32⟩ : BufTy).Contents (Elt F)),
    binary main_v7 main_v15 main_v16 ((fun l r => Host.dotGeneral dot_S4096x2048_S1000x2048_S4096x1000_1_1_0_0_n_n none l r) : (⟨S4096x2048, .f32⟩ : BufTy).Contents (Elt F) → (⟨S1000x2048, .f32⟩ : BufTy).Contents (Elt F) → (⟨S4096x1000, .f32⟩ : BufTy).Contents (Elt F)),
    nullary main_cst_3 (constant S_ .f32 0x3DCCCCCD#32),
    unary main_cst_3 main_v17 (broadcastInDim S4096x1000 ![] bcast_S_S4096x1000 : (⟨S_, .f32⟩ : BufTy).Contents (Elt F) → (⟨S4096x1000, .f32⟩ : BufTy).Contents (Elt F)),
    binary main_v16 main_v17 main_v18 (Host.divf : (⟨S4096x1000, .f32⟩ : BufTy).Contents (Elt F) → (⟨S4096x1000, .f32⟩ : BufTy).Contents (Elt F) → (⟨S4096x1000, .f32⟩ : BufTy).Contents (Elt F)),
    unary main_v18 main_v19 (Host.negf : (⟨S4096x1000, .f32⟩ : BufTy).Contents (Elt F) → (⟨S4096x1000, .f32⟩ : BufTy).Contents (Elt F)),
    nullary main_call0_cst ((constant S_ .f32 0x00000000#32) : (⟨S_, .f32⟩ : BufTy).Contents (Elt F)),
    unary main_call0_cst main_call0_v0 ((broadcastInDim S4096x1000 ![] bcast_S_S4096x1000) : (⟨S_, .f32⟩ : BufTy).Contents (Elt F) → (⟨S4096x1000, .f32⟩ : BufTy).Contents (Elt F)),
    binary main_v19 main_call0_v0 main_call0_v1 ((maximumf) : (⟨S4096x1000, .f32⟩ : BufTy).Contents (Elt F) → (⟨S4096x1000, .f32⟩ : BufTy).Contents (Elt F) → (⟨S4096x1000, .f32⟩ : BufTy).Contents (Elt F)),
    unary main_call0_cst main_call0_v2 ((broadcastInDim S4096x1000 ![] bcast_S_S4096x1000) : (⟨S_, .f32⟩ : BufTy).Contents (Elt F) → (⟨S4096x1000, .f32⟩ : BufTy).Contents (Elt F)),
    binary main_v19 main_call0_v2 main_call0_v3 ((subf) : (⟨S4096x1000, .f32⟩ : BufTy).Contents (Elt F) → (⟨S4096x1000, .f32⟩ : BufTy).Contents (Elt F) → (⟨S4096x1000, .f32⟩ : BufTy).Contents (Elt F)),
    binary main_call0_v3 main_call0_v3 main_call0_v4 ((cmpf .une) : (⟨S4096x1000, .f32⟩ : BufTy).Contents (Elt F) → (⟨S4096x1000, .f32⟩ : BufTy).Contents (Elt F) → (⟨S4096x1000, .i1⟩ : BufTy).Contents (Elt F)),
    unary main_call0_cst main_call0_v5 ((broadcastInDim S4096x1000 ![] bcast_S_S4096x1000) : (⟨S_, .f32⟩ : BufTy).Contents (Elt F) → (⟨S4096x1000, .f32⟩ : BufTy).Contents (Elt F)),
    binary main_v19 main_call0_v5 main_call0_v6 ((addf) : (⟨S4096x1000, .f32⟩ : BufTy).Contents (Elt F) → (⟨S4096x1000, .f32⟩ : BufTy).Contents (Elt F) → (⟨S4096x1000, .f32⟩ : BufTy).Contents (Elt F)),
    unary main_call0_v3 main_call0_v7 ((Host.absf) : (⟨S4096x1000, .f32⟩ : BufTy).Contents (Elt F) → (⟨S4096x1000, .f32⟩ : BufTy).Contents (Elt F)),
    unary main_call0_v7 main_call0_v8 ((Host.negf) : (⟨S4096x1000, .f32⟩ : BufTy).Contents (Elt F) → (⟨S4096x1000, .f32⟩ : BufTy).Contents (Elt F)),
    unary main_call0_v8 main_call0_v9 ((Host.exp) : (⟨S4096x1000, .f32⟩ : BufTy).Contents (Elt F) → (⟨S4096x1000, .f32⟩ : BufTy).Contents (Elt F)),
    unary main_call0_v9 main_call0_v10 ((Host.log1p) : (⟨S4096x1000, .f32⟩ : BufTy).Contents (Elt F) → (⟨S4096x1000, .f32⟩ : BufTy).Contents (Elt F)),
    binary main_call0_v1 main_call0_v10 main_call0_v11 ((addf) : (⟨S4096x1000, .f32⟩ : BufTy).Contents (Elt F) → (⟨S4096x1000, .f32⟩ : BufTy).Contents (Elt F) → (⟨S4096x1000, .f32⟩ : BufTy).Contents (Elt F)),
    ternary main_call0_v4 main_call0_v6 main_call0_v11 main_v20 ((select) : (⟨S4096x1000, .i1⟩ : BufTy).Contents (Elt F) → (⟨S4096x1000, .f32⟩ : BufTy).Contents (Elt F) → (⟨S4096x1000, .f32⟩ : BufTy).Contents (Elt F) → (⟨S4096x1000, .f32⟩ : BufTy).Contents (Elt F)),
    nullary main_c (constantI S_ 32 0#32),
    unary main_c main_v21 (broadcastInDim S4096x1000 ![] bcast_S_S4096x1000 : (⟨S_, .i32⟩ : BufTy).Contents (Elt F) → (⟨S4096x1000, .i32⟩ : BufTy).Contents (Elt F)),
    binary main_arg2 main_v21 main_v22 (cmpi .sgt : (⟨S4096x1000, .i32⟩ : BufTy).Contents (Elt F) → (⟨S4096x1000, .i32⟩ : BufTy).Contents (Elt F) → (⟨S4096x1000, .i1⟩ : BufTy).Contents (Elt F)),
    unary main_v22 main_v23 ((extui 32 · natLt_1_32) : (⟨S4096x1000, .i1⟩ : BufTy).Contents (Elt F) → (⟨S4096x1000, .i32⟩ : BufTy).Contents (Elt F)),
    nullary main_c_4 (constantI S_ 32 0#32),
    binary main_v23 main_c_4 main_v24 ((fun x v => Host.reduce IntOp.addi x v reducesTo_S4096x1000_S4096_d1 h_S_) : (⟨S4096x1000, .i32⟩ : BufTy).Contents (Elt F) → (⟨S_, .i32⟩ : BufTy).Contents (Elt F) → (⟨S4096, .i32⟩ : BufTy).Contents (Elt F)),
    nullary main_cst_5 (constant S_ .f32 0x00000000#32),
    unary main_cst_5 main_call1_v0 ((id) : (⟨S_, .f32⟩ : BufTy).Contents (Elt F) → (⟨S_, .f32⟩ : BufTy).Contents (Elt F)),
    unary main_call1_v0 main_call1_v1 ((broadcastInDim S4096x1000 ![] bcast_S_S4096x1000) : (⟨S_, .f32⟩ : BufTy).Contents (Elt F) → (⟨S4096x1000, .f32⟩ : BufTy).Contents (Elt F)),
    ternary main_v22 main_v20 main_call1_v1 main_v25 ((select) : (⟨S4096x1000, .i1⟩ : BufTy).Contents (Elt F) → (⟨S4096x1000, .f32⟩ : BufTy).Contents (Elt F) → (⟨S4096x1000, .f32⟩ : BufTy).Contents (Elt F) → (⟨S4096x1000, .f32⟩ : BufTy).Contents (Elt F)),
    nullary main_cst_6 (constant S_ .f32 0x00000000#32),
    binary main_v25 main_cst_6 main_v26 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    nullary main_c_7 (constantI S_ 32 1#32),
    unary main_c_7 main_v27 (broadcastInDim S4096 ![] bcast_S_S4096 : (⟨S_, .i32⟩ : BufTy).Contents (Elt F) → (⟨S4096, .i32⟩ : BufTy).Contents (Elt F)),
    binary main_v24 main_v27 main_v28 (maxsi : (⟨S4096, .i32⟩ : BufTy).Contents (Elt F) → (⟨S4096, .i32⟩ : BufTy).Contents (Elt F) → (⟨S4096, .i32⟩ : BufTy).Contents (Elt F)),
    unary main_v28 main_v29 (sitofp .f32 : (⟨S4096, .i32⟩ : BufTy).Contents (Elt F) → (⟨S4096, .f32⟩ : BufTy).Contents (Elt F)),
    binary main_v26 main_v29 main_v30 (Host.divf : (⟨S4096, .f32⟩ : BufTy).Contents (Elt F) → (⟨S4096, .f32⟩ : BufTy).Contents (Elt F) → (⟨S4096, .f32⟩ : BufTy).Contents (Elt F)),
    nullary main_c_8 (constantI S_ 32 0#32),
    unary main_c_8 main_v31 (broadcastInDim S4096 ![] bcast_S_S4096 : (⟨S_, .i32⟩ : BufTy).Contents (Elt F) → (⟨S4096, .i32⟩ : BufTy).Contents (Elt F)),
    binary main_v24 main_v31 main_v32 (cmpi .sgt : (⟨S4096, .i32⟩ : BufTy).Contents (Elt F) → (⟨S4096, .i32⟩ : BufTy).Contents (Elt F) → (⟨S4096, .i1⟩ : BufTy).Contents (Elt F)),
    unary main_v32 main_v33 ((extui 32 · natLt_1_32) : (⟨S4096, .i1⟩ : BufTy).Contents (Elt F) → (⟨S4096, .i32⟩ : BufTy).Contents (Elt F)),
    nullary main_c_9 (constantI S_ 32 0#32),
    binary main_v33 main_c_9 main_v34 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_cst_10 (constant S_ .f32 0x00000000#32),
    unary main_cst_10 main_call2_v0 ((id) : (⟨S_, .f32⟩ : BufTy).Contents (Elt F) → (⟨S_, .f32⟩ : BufTy).Contents (Elt F)),
    unary main_call2_v0 main_call2_v1 ((broadcastInDim S4096 ![] bcast_S_S4096) : (⟨S_, .f32⟩ : BufTy).Contents (Elt F) → (⟨S4096, .f32⟩ : BufTy).Contents (Elt F)),
    ternary main_v32 main_v30 main_call2_v1 main_v35 ((select) : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    nullary main_cst_11 (constant S_ .f32 0x00000000#32),
    binary main_v35 main_cst_11 main_v36 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_12 (constantI S_ 32 0#32),
    binary main_v34 main_c_12 main_v37 (cmpi .sgt : (⟨S_, .i32⟩ : BufTy).Contents (Elt F) → (⟨S_, .i32⟩ : BufTy).Contents (Elt F) → (⟨S_, .i1⟩ : BufTy).Contents (Elt F)),
    nullary main_c_13 (constantI S_ 32 1#32),
    binary main_v34 main_c_13 main_v38 (maxsi : (⟨S_, .i32⟩ : BufTy).Contents (Elt F) → (⟨S_, .i32⟩ : BufTy).Contents (Elt F) → (⟨S_, .i32⟩ : BufTy).Contents (Elt F)),
    unary main_v38 main_v39 (sitofp .f32 : (⟨S_, .i32⟩ : BufTy).Contents (Elt F) → (⟨S_, .f32⟩ : BufTy).Contents (Elt F)),
    binary main_v36 main_v39 main_v40 (Host.divf : (⟨S_, .f32⟩ : BufTy).Contents (Elt F) → (⟨S_, .f32⟩ : BufTy).Contents (Elt F) → (⟨S_, .f32⟩ : BufTy).Contents (Elt F)),
    nullary main_cst_14 (constant S_ .f32 0x00000000#32),
    unary main_cst_14 main_call3_v0 ((id) : (⟨S_, .f32⟩ : BufTy).Contents (Elt F) → (⟨S_, .f32⟩ : BufTy).Contents (Elt F)),
    ternary main_v37 main_v40 main_call3_v0 main_v41 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line. -/
theorem main_eq (c : Dev nD) : main (F := F) c = seq ops := rfl
/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub ..⟩

set_option maxRecDepth 16384 in
set_option maxHeartbeats 30800000 in
/-- The result buffer after the 77 operations holds the staged function of the argument arrays as launched. -/
theorem result_after (m : (ℓ : Loc nD τ sig) → Buf (Elt F) ℓ) (c : Dev nD) :
    after (ops (F := F)) (launchContents m c) (Proc.devRef .tc main_v41)
      = Ref.resultV (m ((c.tc : Thread nD τ).loc main_arg0)) (m ((c.tc : Thread nD τ).loc main_arg1)) (m ((c.tc : Thread nD τ).loc main_arg2)) := by
  after_results_simp
  unfold Ref.resultV Ref.totalV Ref.nvalidV Ref.validV Ref.rowLossV Ref.rowSumV Ref.cntV Ref.bitV Ref.lossV Ref.softplusV Ref.negSimV Ref.pnV Ref.fnV
  rfl

set_option maxRecDepth 16384 in
set_option maxHeartbeats 30800000 in
/-- Every weakly fair execution of the reference terminates with the staged function of the arguments in its result
    buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = Ref.resultV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v41).trans (result_after m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.SupCon.RefRun

end
-- ==== Proof.lean ====
/-
  The kernel computes, per block of 512 feature rows, the sum of the mean positive-label softplus losses of the rows
  that have a positive label and the number of such rows; the host adds the eight partial results and divides. The
  reference computes the same mean over all 4096 rows at once. Both are the one function `Cert.SupCon.out` of the three
  argument arrays over the extended reals (Proof/Spec.lean): the kernel's by Proof/KernelValue.lean (body, blocks,
  host operations around the region), the reference's by Proof/RefRun.lean and Proof/RefValue.lean. The two sides differ
  only in the grouping of sums, in carrying counts as floats or as 32-bit integers, in 24 zero-padded columns that count
  nothing and mask their entries out, and in spellings of negation and of x - 0: no step needs the inputs finite.
-/
import proofs.«121065_j19361712571095_2_alg».proof.Defs
import proofs.«121065_j19361712571095_2_alg».proof.Proof.Gen.Kernel
import proofs.«121065_j19361712571095_2_alg».proof.Proof.Gen.Kernel.Skeleton
import proofs.«121065_j19361712571095_2_alg».proof.Proof.Gen.Kernel.Launch
import proofs.«121065_j19361712571095_2_alg».proof.Proof.Gen.Kernel.Points
import proofs.«121065_j19361712571095_2_alg».proof.Proof.Gen.Kernel.Frame
import proofs.«121065_j19361712571095_2_alg».proof.Proof.Gen.KernelIdeal
import proofs.«121065_j19361712571095_2_alg».proof.Proof.Gen.KernelIdeal.Skeleton
import proofs.«121065_j19361712571095_2_alg».proof.Proof.Gen.KernelIdeal.Launch
import proofs.«121065_j19361712571095_2_alg».proof.Proof.Gen.KernelIdeal.Points
import proofs.«121065_j19361712571095_2_alg».proof.Proof.Gen.KernelIdeal.Frame
import proofs.«121065_j19361712571095_2_alg».proof.Proof.Gen.ReferenceIdeal
import proofs.«121065_j19361712571095_2_alg».proof.Proof.Gen.Pre_finite_inputs
import proofs.«121065_j19361712571095_2_alg».proof.Proof.KernelValue
import proofs.«121065_j19361712571095_2_alg».proof.Proof.RefValue
import proofs.«121065_j19361712571095_2_alg».proof.Proof.RefRun
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.SupCon.RefRun.run (F := Ideal) m ρ)

/-- At the exact values both programs end with the specification's loss of their (agreeing) arguments. -/
theorem algebraic : Cert.algebraic_KernelIdeal_ReferenceIdeal := by
  intro m ρ m' ρ' _ hagree
  refine ⟨fun c => (fun _ => Cert.SupCon.out (Cert.SupCon.Value.fA m c) (Cert.SupCon.Value.pA m c) (Cert.SupCon.Value.lA m c)),
    Cert.SupCon.Value.run m ρ, ?_⟩
  refine (θ_run Cert.ReferenceIdeal.defs _ _).mono (fun _ h c => ⟨(h c).1.trans ?_, (h c).2⟩)
    (Cert.SupCon.RefRun.run (F := Ideal) m' ρ')
  rw [Cert.SupCon.Ref.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
